-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x1000000 : Shape := ⟨2, ![2, 1000000]⟩
abbrev S1000000x3 : Shape := ⟨2, ![1000000, 3]⟩
abbrev S1000000x1 : Shape := ⟨2, ![1000000, 1]⟩
abbrev S50000x1 : Shape := ⟨2, ![50000, 1]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S1000000x3 : S_.BroadcastsInDim S1000000x3 (![] : Fin 0 → Fin S1000000x3.rank)
  reducesTo_S1000000x3_S_d0_1 : S1000000x3.ReducesTo [0, 1] S_
  bcast_S_S1000000x1 : S_.BroadcastsInDim S1000000x1 (![] : Fin 0 → Fin S1000000x1.rank)
  reducesTo_S1000000x1_S_d0_1 : S1000000x1.ReducesTo [0, 1] S_
  bcast_S_S50000x1 : S_.BroadcastsInDim S50000x1 (![] : Fin 0 → Fin S50000x1.rank)
  reducesTo_S50000x1_S_d0_1 : S50000x1.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_

variable [Facts]

def fn_part3 {F : FTy → Type} [FloatOps F] (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  main_v53

def fn_part2 {F : FTy → Type} [FloatOps F] (main_arg8 : FVec F S128 .f32) (main_arg9 : FVec F S128x128 .f32) (main_arg10 : FVec F S128 .f32) (main_arg11 : FVec F S128x1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg11
  let main_cst_18 : FVec F S_ .f32 := constant S_ .f32 0x7F800000#32
  let main_v50 : FVec F S128x1 .f32 := broadcastInDim S128x1 ![] bcast_S_S128x1 main_cst_18
  fn_part3 (F := F) main_v48 main_v49 main_v50

def fn_part1 {F : FTy → Type} [FloatOps F] (main_arg5 : FVec F S50000x1 .f32) (main_arg6 : FVec F S1000000x1 .f32) (main_arg7 : FVec F S257x128 .f32) (main_arg8 : FVec F S128 .f32) (main_arg9 : FVec F S128x128 .f32) (main_arg10 : FVec F S128 .f32) (main_arg11 : FVec F S128x1 .f32) (main_v13 : IVec S_ 1) (main_v16 : IVec S1000000x1 1) : IVec S_ 1 :=
  let main_c_5 : IVec S_ 1 := constantI S_ 1 1#1
  let main_v17 : IVec S_ 1 := (fun x v => Host.reduce IntOp.andi x v reducesTo_S1000000x1_S_d0_1 h_S_) main_v16 main_c_5
  let main_v18 : IVec S_ 1 := andi main_v13 main_v17
  let main_v19 : FVec F S50000x1 .f32 := Host.absf main_arg5
  let main_cst_6 : FVec F S_ .f32 := constant S_ .f32 0x7F800000#32
  let main_v20 : FVec F S50000x1 .f32 := broadcastInDim S50000x1 ![] bcast_S_S50000x1 main_cst_6
  let main_v21 : IVec S50000x1 1 := cmpf .olt main_v19 main_v20
  let main_c_7 : IVec S_ 1 := constantI S_ 1 1#1
  let main_v22 : IVec S_ 1 := (fun x v => Host.reduce IntOp.andi x v reducesTo_S50000x1_S_d0_1 h_S_) main_v21 main_c_7
  let main_v23 : IVec S_ 1 := andi main_v18 main_v22
  let main_v24 : FVec F S1000000x1 .f32 := Host.absf main_arg6
  let main_cst_8 : FVec F S_ .f32 := constant S_ .f32 0x7F800000#32
  let main_v25 : FVec F S1000000x1 .f32 := broadcastInDim S1000000x1 ![] bcast_S_S1000000x1 main_cst_8
  let main_v26 : IVec S1000000x1 1 := cmpf .olt main_v24 main_v25
  let main_c_9 : IVec S_ 1 := constantI S_ 1 1#1
  let main_v27 : IVec S_ 1 := (fun x v => Host.reduce IntOp.andi x v reducesTo_S1000000x1_S_d0_1 h_S_) main_v26 main_c_9
  let main_v28 : IVec S_ 1 := andi main_v23 main_v27
  let main_v29 : FVec F S257x128 .f32 := Host.absf main_arg7
  let main_cst_10 : FVec F S_ .f32 := constant S_ .f32 0x7F800000#32
  let main_v30 : FVec F S257x128 .f32 := broadcastInDim S257x128 ![] bcast_S_S257x128 main_cst_10
  let main_v31 : IVec S257x128 1 := cmpf .olt main_v29 main_v30
  let main_c_11 : IVec S_ 1 := constantI S_ 1 1#1
  let main_v32 : IVec S_ 1 := (fun x v => Host.reduce IntOp.andi x v reducesTo_S257x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : FVec F S50000x3 .f32) (main_arg2 : IVec S2x1000000 32) (main_arg3 : FVec F S1000000x3 .f32) (main_arg4 : FVec F S1000000x1 .f32) (main_arg5 : FVec F S50000x1 .f32) (main_arg6 : FVec F S1000000x1 .f32) (main_arg7 : FVec F S257x128 .f32) (main_arg8 : FVec F S128 .f32) (main_arg9 : FVec F S128x128 .f32) (main_arg10 : FVec F S128 .f32) (main_arg11 : FVec F S128x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S1000000x3 .f32 := Host.absf main_arg3
  let main_cst_2 : FVec F S_ .f32 := constant S_ .f32 0x7F800000#32
  let main_v10 : FVec F S1000000x3 .f32 := broadcastInDim S1000000x3 ![] bcast_S_S1000000x3 main_cst_2
  let main_v11 : IVec S1000000x3 1 := cmpf .olt main_v9 main_v10
  let main_c_3 : IVec S_ 1 := constantI S_ 1 1#1
  let main_v12 : IVec S_ 1 := (fun x v => Host.reduce IntOp.andi x v reducesTo_S1000000x3_S_d0_1 h_S_) main_v11 main_c_3
  let main_v13 : IVec S_ 1 := andi main_v8 main_v12
  let main_v14 : FVec F S1000000x1 .f32 := Host.absf main_arg4
  let main_cst_4 : FVec F S_ .f32 := constant S_ .f32 0x7F800000#32
  let main_v15 : FVec F S1000000x1 .f32 := broadcastInDim S1000000x1 ![] bcast_S_S1000000x1 main_cst_4
  let main_v16 : IVec S1000000x1 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S50000x3 : Shape := ⟨2, ![50000, 3]⟩
abbrev S2x1000000 : Shape := ⟨2, ![2, 1000000]⟩
abbrev S1000000x3 : Shape := ⟨2, ![1000000, 3]⟩
abbrev S1000000x1 : Shape := ⟨2, ![1000000, 1]⟩
abbrev S50000x1 : Shape := ⟨2, ![50000, 1]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1x1000000 : Shape := ⟨2, ![1, 1000000]⟩
abbrev S1000000 : Shape := ⟨1, ![1000000]⟩
abbrev S128x50000 : Shape := ⟨2, ![128, 50000]⟩
abbrev S_ : Shape := ⟨0, ![]⟩
abbrev S128x1000000 : Shape := ⟨2, ![128, 1000000]⟩
abbrev S3x1000000 : Shape := ⟨2, ![3, 1000000]⟩
abbrev S128x1007616 : Shape := ⟨2, ![128, 1007616]⟩
abbrev S1x1007616 : Shape := ⟨2, ![1, 1007616]⟩
abbrev S3x1007616 : Shape := ⟨2, ![3, 1007616]⟩
abbrev S1x128 : Shape := ⟨2, ![1, 128]⟩
abbrev S128x8192 : Shape := ⟨2, ![128, 8192]⟩
abbrev S1x8192 : Shape := ⟨2, ![1, 8192]⟩
abbrev S3x8192 : Shape := ⟨2, ![3, 8192]⟩

abbrev nBuf : Space → Nat
  | .hbm => 81
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x1000000, .i32⟩
  | .hbm, ⟨3, _⟩ => ⟨S1000000x3, .f32⟩
  | .hbm, ⟨4, _⟩ => ⟨S1000000x1, .f32⟩
  | .hbm, ⟨5, _⟩ => ⟨S50000x1, .f32⟩
  | .hbm, ⟨6, _⟩ => ⟨S1000000x1, .f32⟩
  | .hbm, ⟨7, _⟩ => ⟨S257x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1x1000000, .i32⟩
  | .hbm, ⟨13, _⟩ => ⟨S1000000, .i32⟩
  | .hbm, ⟨14, _⟩ => ⟨S1x1000000, .i32⟩
  | .hbm, ⟨15, _⟩ => ⟨S1000000, .i32⟩
  | .hbm, ⟨16, _⟩ => ⟨S128x50000, .f32⟩
  | .hbm, ⟨17, _⟩ => ⟨S128x50000, .bf16⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S128x1000000, .bf16⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S128x1000000, .bf16⟩
  | .hbm, ⟨36, _⟩ => ⟨S1x1000000, .f32⟩
  | .hbm, ⟨37, _⟩ => ⟨S3x1000000, .f32⟩
  | .hbm, ⟨38, _⟩ => ⟨S1x1000000, .f32⟩
  | .hbm, ⟨39, _⟩ => ⟨S_, .i32⟩
  | .hbm, ⟨40, _⟩ => ⟨S_, .bf16⟩
  | .hbm, ⟨41, _⟩ => ⟨S128x1007616, .bf16⟩
  | .hbm, ⟨42, _⟩ => ⟨S_, .i32⟩
  | .hbm, ⟨43, _⟩ => ⟨S_, .bf16⟩
  | .hbm, ⟨44, _⟩ => ⟨S128x1007616, .bf16⟩
  | .hbm, ⟨45, _⟩ => ⟨S_, .i32⟩
  | .hbm, ⟨46, _⟩ => ⟨S_, .f32⟩
  | .hbm, ⟨47, _⟩ => ⟨S1x1007616, .f32⟩
  | .hbm, ⟨48, _⟩ => ⟨S_, .i32⟩
  | .hbm, ⟨49, _⟩ => ⟨S_, .f32⟩
  | .hbm, ⟨50, _⟩ => ⟨S3x1007616, .f32⟩
  | .hbm, ⟨51, _⟩ => ⟨S_, .i32⟩
  | .hbm, ⟨52, _⟩ => ⟨S_, .f32⟩
  | .hbm, ⟨53, _⟩ => ⟨S1x1007616, .f32⟩
  | .hbm, ⟨54, _⟩ => ⟨S128x128, .f32⟩
  | .hbm, ⟨55, _⟩ => ⟨S128x128, .f32⟩
  | .hbm, ⟨56, _⟩ => ⟨S128x128, .bf16⟩
  | .hbm, ⟨57, _⟩ => ⟨S128x128, .f32⟩
  | .hbm, ⟨58, _⟩ => ⟨S128x128, .f32⟩
  | .hbm, ⟨59, _⟩ => ⟨S128x128, .bf16⟩
  | .hbm, ⟨60, _⟩ => ⟨S1x128, .f32⟩
  | .hbm, ⟨61, _⟩ => ⟨S128x1, .f32⟩
  | .hbm, ⟨62, _⟩ => ⟨S128x1, .f32⟩
  | .hbm, ⟨63, _⟩ => ⟨S128x128, .f32⟩
  | .hbm, ⟨64, _⟩ => ⟨S128x128, .bf16⟩
  | .hbm, ⟨65, _⟩ => ⟨S128x1, .f32⟩
  | .hbm, ⟨66, _⟩ => ⟨S1x128, .f32⟩
  | .hbm, ⟨67, _⟩ => ⟨S1x128, .bf16⟩
  | .hbm, ⟨68, _⟩ => ⟨S3x1007616, .f32⟩
  | .hbm, ⟨69, _⟩ => ⟨S3x1000000, .f32⟩
  | .hbm, ⟨70, _⟩ => ⟨S1000000x3, .f32⟩
  | .hbm, ⟨71, _⟩ => ⟨S_, .f32⟩
  | .hbm, ⟨72, _⟩ => ⟨S50000x3, .f32⟩
  | .hbm, ⟨73, _⟩ => ⟨S1000000x1, .i32⟩
  | .hbm, ⟨74, _⟩ => ⟨S50000x3, .f32⟩
  | .hbm, ⟨75, _⟩ => ⟨S_, .f32⟩
  | .hbm, ⟨76, _⟩ => ⟨S50000x3, .f32⟩
  | .hbm, ⟨77, _⟩ => ⟨S50000x3, .f32⟩
  | .hbm, ⟨78, _⟩ => ⟨S50000x3, .f32⟩
  | .hbm, ⟨79, _⟩ => ⟨S50000x3, .f32⟩
  | .hbm, ⟨80, _⟩ => ⟨S50000x3, .f32⟩
  | .local _ .vmem, ⟨0, _⟩ => ⟨S128x8192, .bf16⟩
  | .local _ .vmem, ⟨1, _⟩ => ⟨S128x8192, .bf16⟩
  | .local _ .vmem, ⟨2, _⟩ => ⟨S128x8192, .bf16⟩
  | .local _ .vmem, ⟨3, _⟩ => ⟨S128x8192, .bf16⟩
  | .local _ .vmem, ⟨4, _⟩ => ⟨S1x8192, .f32⟩
  | .local _ .vmem, ⟨5, _⟩ => ⟨S1x8192, .f32⟩
  | .local _ .vmem, ⟨6, _⟩ => ⟨S3x8192, .f32⟩
  | .local _ .vmem, ⟨7, _⟩ => ⟨S3x8192, .f32⟩
  | .local _ .vmem, ⟨8, _⟩ => ⟨S1x8192, .f32⟩
  | .local _ .vmem, ⟨9, _⟩ => ⟨S1x8192, .f32⟩
  | .local _ .vmem, ⟨10, _⟩ => ⟨S128x128, .bf16⟩
  | .local _ .vmem, ⟨11, _⟩ => ⟨S128x128, .bf16⟩
  | .local _ .vmem, ⟨12, _⟩ => ⟨S128x1, .f32⟩
  | .local _ .vmem, ⟨13, _⟩ => ⟨S128x1, .f32⟩
  | .local _ .vmem, ⟨14, _⟩ => ⟨S128x128, .bf16⟩
  | .local _ .vmem, ⟨15, _⟩ => ⟨S128x1, .f32⟩
  | .local _ .vmem, ⟨16, _⟩ => ⟨S1x128, .bf16⟩
  | .local _ .vmem, ⟨17, _⟩ => ⟨S3x8192, .f32⟩
  | .local _ .vmem, ⟨18, _⟩ => ⟨S3x8192, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_call0_v0 : Ref sig .tc := ⟨.hbm, 40, rfl⟩
abbrev main_v23 : Ref sig .tc := ⟨.hbm, 41, rfl⟩
abbrev main_c_4 : Ref sig .tc := ⟨.hbm, 42, rfl⟩
abbrev main_call1_v0 : Ref sig .tc := ⟨.hbm, 43, rfl⟩
abbrev main_v24 : Ref sig .tc := ⟨.hbm, 44, rfl⟩
abbrev main_c_5 : Ref sig .tc := ⟨.hbm, 45, rfl⟩
abbrev main_call2_v0 : Ref sig .tc := ⟨.hbm, 46, rfl⟩
abbrev main_v25 : Ref sig .tc := ⟨.hbm, 47, rfl⟩
abbrev main_c_6 : Ref sig .tc := ⟨.hbm, 48, rfl⟩
abbrev main_call3_v0 : Ref sig .tc := ⟨.hbm, 49, rfl⟩
abbrev main_v26 : Ref sig .tc := ⟨.hbm, 50, rfl⟩
abbrev main_c_7 : Ref sig .tc := ⟨.hbm, 51, rfl⟩
abbrev main_call4_v0 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_8 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S3x8192 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  transposes_S50000x128_S128x50000_1_0 : S50000x128.Transposes [1, 0] S128x50000
  bitsLt_bf16_f32 : FTy.bits .bf16 < FTy.bits .f32
  bcast_S_S1000000 : S_.BroadcastsInDim S1000000 (![] : Fin 0 → Fin S1000000.rank)
  bcast_S1000000_S1000000x1_0 : S1000000.BroadcastsInDim S1000000x1 (![0] : Fin 1 → Fin S1000000x1.rank)
  transposes_S1000000x1_S1x1000000_1_0 : S1000000x1.Transposes [1, 0] S1x1000000
  transposes_S1000000x3_S3x1000000_1_0 : S1000000x3.Transposes [1, 0] S3x1000000
  pads_S128x1000000_S128x1007616_000_076160 : S128x1000000.Pads (![0, 0] : Fin 2 → Nat) ![0, 7616] ![0, 0] S128x1007616
  h_S_ : 0 < S_.numel
  pads_S1x1000000_S1x1007616_000_076160 : S1x1000000.Pads (![0, 0] : Fin 2 → Nat) ![0, 7616] ![0, 0] S1x1007616
  pads_S3x1000000_S3x1007616_000_076160 : S3x1000000.Pads (![0, 0] : Fin 2 → Nat) ![0, 7616] ![0, 0] S3x1007616
  slices_S257x128_S128x128_0_0 : S257x128.Slices ![0, 0] S128x128
  transposes_S128x128_S128x128_1_0 : S128x128.Transposes [1, 0] S128x128
  slices_S257x128_S128x128_128_0 : S257x128.Slices ![128, 0] S128x128
  slices_S257x128_S1x128_256_0 : S257x128.Slices ![256, 0] S1x128
  transposes_S1x128_S128x1_1_0 : S1x128.Transposes [1, 0] S128x1
  shapeCasts_S128_S128x1 : S128.ShapeCasts S128x1
  transposes_S128x1_S1x128_1_0 : S128x1.Transposes [1, 0] S1x128
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S3x8192_S3x8192_0_0 : ∀ a, (![0, 0] : Fin 2 → Nat) a + S3x8192.size a ≤ S3x8192.size a
  h_S3x8192 : 0 < S3x8192.numel
  shapeCasts_S3x8192_S3x8192 : S3x8192.ShapeCasts S3x8192
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S128x1_S128x8192 : S128x1.Broadcasts S128x8192
  broadcasts_S1x8192_S128x8192 : S1x8192.Broadcasts S128x8192
  broadcasts_S1x8192_S3x8192 : S1x8192.Broadcasts S3x8192
  slices_S3x1007616_S3x1000000_0_0 : S3x1007616.Slices ![0, 0] S3x1000000
  transposes_S3x1000000_S1000000x3_1_0 : S3x1000000.Transposes [1, 0] S1000000x3
  bcast_S_S50000x3 : S_.BroadcastsInDim S50000x3 (![] : Fin 0 → Fin S50000x3.rank)
  bcast_S50000x1_S50000x3_0_1 : S50000x1.BroadcastsInDim S50000x3 (![0, 1] : Fin 2 → Fin S50000x3.rank)
  gather_S128x50000_S1000000x1_S128x1000000_0_1_n_n_1_1_1281_wf : GatherDims.WF S128x50000 S1000000x1 S128x1000000 [0] [1] [] [1] [] 1 ![128, 1]
  dot_S128x128_S128x8192_S128x8192_1_0_0_1_n_n_wf : DotDims.WF S128x128 S128x8192 S128x8192 [1] [0] [0] [1] [] []
  dot_S1x128_S128x8192_S1x8192_1_0_0_1_n_n_wf : DotDims.WF S1x128 S128x8192 S1x8192 [1] [0] [0] [1] [] []
  scatter_S50000x3_S1000000x1_S1000000x3_1_0_0_1_wf : ScatterDims.WF S50000x3 S1000000x1 S1000000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S128x1007616.size a
  hwx0_0 : ∀ i : grid0.Coords, EltTy.bits .bf16 = 32 ∨ (Rect.block (s := S128x1007616) S128x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S128x1007616.size a
  hwx0_1 : ∀ i : grid0.Coords, EltTy.bits .bf16 = 32 ∨ (Rect.block (s := S128x1007616) S128x8192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x1007616.size a
  hwx0_2 : ∀ i : grid0.Coords, EltTy.bits .f32 = 32 ∨ (Rect.block (s := S1x1007616) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x8192.size a ≤ S3x1007616.size a
  hwx0_3 : ∀ i : grid0.Coords, EltTy.bits .f32 = 32 ∨ (Rect.block (s := S3x1007616) S3x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8192.size a ≤ S1x1007616.size a
  hwx0_4 : ∀ i : grid0.Coords, EltTy.bits .f32 = 32 ∨ (Rect.block (s := S1x1007616) S1x8192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S128x1.size a
  hwx0_7 : ∀ i : grid0.Coords, EltTy.bits .f32 = 32 ∨ (Rect.block (s := S128x1) S128x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x1.size a ≤ S128x1.size a
  hwx0_8 : ∀ i : grid0.Coords, EltTy.bits .f32 = 32 ∨ (Rect.block (s := S128x1) S128x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x1.size a ≤ S128x1.size a
  hwx0_10 : ∀ i : grid0.Coords, EltTy.bits .f32 = 32 ∨ (Rect.block (s := S128x1) S128x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .bf16 = 32 ∨ (Rect.block (s := S1x128) S1x128.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S3x8192.size a ≤ S3x1007616.size a
  hwx0_12 : ∀ i : grid0.Coords, EltTy.bits .f32 = 32 ∨ (Rect.block (s := S3x1007616) S3x8192.size (cc0_transform_12 i) (hinb0_12 i)).WholeWords (EltTy.packing .f32)

variable [Facts₀]

def gather_S128x50000_S1000000x1_S128x1000000_0_1_n_n_1_1_1281 : GatherDims S128x50000 S1000000x1 S128x1000000 where
  offsetDims := [0]
  collapsedSliceDims := [1]
  operandBatchingDims := []
  startIndicesBatchingDims := []
  startIndexMap := [1]
  indexVectorDim := 1
  sliceSizes := ![128, 1]
  wf := gather_S128x50000_S1000000x1_S128x1000000_0_1_n_n_1_1_1281_wf
def dot_S128x128_S128x8192_S128x8192_1_0_0_1_n_n : DotDims S128x128 S128x8192 S128x8192 where
  lhsContracting := [1]
  rhsContracting := [0]
  lhsNonContracting := [0]
  rhsNonContracting := [1]
  lhsBatch := []
  rhsBatch := []
  wf := dot_S128x128_S128x8192_S128x8192_1_0_0_1_n_n_wf
def dot_S1x128_S128x8192_S1x8192_1_0_0_1_n_n : DotDims S1x128 S128x8192 S1x8192 where
  lhsContracting := [1]
  rhsContracting := [0]
  lhsNonContracting := [0]
  rhsNonContracting := [1]
  lhsBatch := []
  rhsBatch := []
  wf := dot_S1x128_S128x8192_S1x8192_1_0_0_1_n_n_wf
def scatter_S50000x3_S1000000x1_S1000000x3_1_0_0_1 : ScatterDims S50000x3 S1000000x1 S1000000x3 where
  updateWindowDims := [1]
  insertedWindowDims := [0]
  scatterDimsToOperandDims := [0]
  indexVectorDim := 1
  wf := scatter_S50000x3_S1000000x1_S1000000x3_1_0_0_1_wf

abbrev win0_0 : Pipeline.Window sig grid0 :=
  Pipeline.Window.ofSpec (Memref.whole main_v23) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S3x8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x8192.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36) S128x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v38) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v39) S128x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v41) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v42) S3x8192.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x1000000 : Shape := ⟨2, ![2, 1000000]⟩
abbrev S1000000x3 : Shape := ⟨2, ![1000000, 3]⟩
abbrev S1000000x1 : Shape := ⟨2, ![1000000, 1]⟩
abbrev S50000x1 : Shape := ⟨2, ![50000, 1]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1x1000000 : Shape := ⟨2, ![1, 1000000]⟩
abbrev S1000000 : Shape := ⟨1, ![1000000]⟩
abbrev S_ : Shape := ⟨0, ![]⟩
abbrev S1000000x128 : Shape := ⟨2, ![1000000, 128]⟩
abbrev S1000000x257 : Shape := ⟨2, ![1000000, 257]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x1000000, .i32⟩
  | .hbm, ⟨3, _⟩ => ⟨S1000000x3, .f32⟩
  | .hbm, ⟨4, _⟩ => ⟨S1000000x1, .f32⟩
  | .hbm, ⟨5, _⟩ => ⟨S50000x1, .f32⟩
  | .hbm, ⟨6, _⟩ => ⟨S1000000x1, .f32⟩
  | .hbm, ⟨7, _⟩ => ⟨S257x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1x1000000, .i32⟩
  | .hbm, ⟨13, _⟩ => ⟨S1000000, .i32⟩
  | .hbm, ⟨14, _⟩ => ⟨S1x1000000, .i32⟩
  | .hbm, ⟨15, _⟩ => ⟨S1000000, .i32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x128, .f32⟩
  | .hbm, ⟨25, _⟩ => ⟨S_, .i32⟩
  | .hbm, ⟨26, _⟩ => ⟨S1000000, .i32⟩
  | .hbm, ⟨27, _⟩ => ⟨S1000000, .i1⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S1000000, .i32⟩
  | .hbm, ⟨32, _⟩ => ⟨S1000000x1, .i32⟩
  | .hbm, ⟨33, _⟩ => ⟨S1000000x128, .f32⟩
  | .hbm, ⟨34, _⟩ => ⟨S1000000x257, .f32⟩
  | .hbm, ⟨35, _⟩ => ⟨S1000000x128, .f32⟩
  | .hbm, ⟨36, _⟩ => ⟨S1x128, .f32⟩
  | .hbm, ⟨37, _⟩ => ⟨S1000000x128, .f32⟩
  | .hbm, ⟨38, _⟩ => ⟨S1000000x128, .f32⟩
  | .hbm, ⟨39, _⟩ => ⟨S1000000x128, .f32⟩
  | .hbm, ⟨40, _⟩ => ⟨S1000000x128, .f32⟩
  | .hbm, ⟨41, _⟩ => ⟨S_, .f32⟩
  | .hbm, ⟨42, _⟩ => ⟨S1000000x128, .f32⟩
  | .hbm, ⟨43, _⟩ => ⟨S1000000x128, .f32⟩
  | .hbm, ⟨44, _⟩ => ⟨S_, .f32⟩
  | .hbm, ⟨45, _⟩ => ⟨S1000000x128, .f32⟩
  | .hbm, ⟨46, _⟩ => ⟨S1000000x128, .f32⟩
  | .hbm, ⟨47, _⟩ => ⟨S1000000x128, .f32⟩
  | .hbm, ⟨48, _⟩ => ⟨S1000000x128, .f32⟩
  | .hbm, ⟨49, _⟩ => ⟨S1x128, .f32⟩
  | .hbm, ⟨50, _⟩ => ⟨S1000000x128, .f32⟩
  | .hbm, ⟨51, _⟩ => ⟨S1000000x128, .f32⟩
  | .hbm, ⟨52, _⟩ => ⟨S1000000x128, .f32⟩
  | .hbm, ⟨53, _⟩ => ⟨S1000000x128, .f32⟩
  | .hbm, ⟨54, _⟩ => ⟨S_, .f32⟩
  | .hbm, ⟨55, _⟩ => ⟨S1000000x128, .f32⟩
  | .hbm, ⟨56, _⟩ => ⟨S1000000x128, .f32⟩
  | .hbm, ⟨57, _⟩ => ⟨S_, .f32⟩
  | .hbm, ⟨58, _⟩ => ⟨S1000000x128, .f32⟩
  | .hbm, ⟨59, _⟩ => ⟨S1000000x128, .f32⟩
  | .hbm, ⟨60, _⟩ => ⟨S1000000x128, .f32⟩
  | .hbm, ⟨61, _⟩ => ⟨S1000000x1, .f32⟩
  | .hbm, ⟨62, _⟩ => ⟨S1000000x3, .f32⟩
  | .hbm, ⟨63, _⟩ => ⟨S1000000x3, .f32⟩
  | .hbm, ⟨64, _⟩ => ⟨S1000000x3, .f32⟩
  | .hbm, ⟨65, _⟩ => ⟨S1000000x3, .f32⟩
  | .hbm, ⟨66, _⟩ => ⟨S_, .f32⟩
  | .hbm, ⟨67, _⟩ => ⟨S50000x3, .f32⟩
  | .hbm, ⟨68, _⟩ => ⟨S1000000x1, .i32⟩
  | .hbm, ⟨69, _⟩ => ⟨S50000x3, .f32⟩
  | .hbm, ⟨70, _⟩ => ⟨S_, .f32⟩
  | .hbm, ⟨71, _⟩ => ⟨S50000x3, .f32⟩
  | .hbm, ⟨72, _⟩ => ⟨S50000x3, .f32⟩
  | .hbm, ⟨73, _⟩ => ⟨S50000x3, .f32⟩
  | .hbm, ⟨74, _⟩ => ⟨S50000x3, .f32⟩
  | .hbm, ⟨75, _⟩ => ⟨S50000x3, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_3 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x128_S1000000x128_S1000000x1_S1000000x257_d1 : Shape.Concatenates [S1000000x128, S1000000x128, S1000000x1] S1000000x257 1
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S1000000x1_S1000000x3_0_1 : S1000000x1.BroadcastsInDim S1000000x3 (![0, 1] : Fin 2 → Fin S1000000x3.rank)
  bcast_S_S50000x3 : S_.BroadcastsInDim S50000x3 (![] : Fin 0 → Fin S50000x3.rank)
  bcast_S50000x1_S50000x3_0_1 : S50000x1.BroadcastsInDim S50000x3 (![0, 1] : Fin 2 → Fin S50000x3.rank)
  gather_S50000x128_S1000000x1_S1000000x128_1_0_n_n_0_1_1128_wf : GatherDims.WF S50000x128 S1000000x1 S1000000x128 [1] [0] [] [0] [] 1 ![1, 128]
  dot_S1000000x257_S257x128_S1000000x128_1_0_0_1_n_n_wf : DotDims.WF S1000000x257 S257x128 S1000000x128 [1] [0] [0] [1] [] []
  dot_S1000000x128_S128x128_S1000000x128_1_0_0_1_n_n_wf : DotDims.WF S1000000x128 S128x128 S1000000x128 [1] [0] [0] [1] [] []
  dot_S1000000x128_S128x1_S1000000x1_1_0_0_1_n_n_wf : DotDims.WF S1000000x128 S128x1 S1000000x1 [1] [0] [0] [1] [] []
  scatter_S50000x3_S1000000x1_S1000000x3_1_0_0_1_wf : ScatterDims.WF S50000x3 S1000000x1 S1000000x3 [1] [0] [0] 1

variable [Facts₀]

def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def dot_S1000000x257_S257x128_S1000000x128_1_0_0_1_n_n : DotDims S1000000x257 S257x128 S1000000x128 where
  lhsContracting := [1]
  rhsContracting := [0]
  lhsNonContracting := [0]
  rhsNonContracting := [1]
  lhsBatch := []
  rhsBatch := []
  wf := dot_S1000000x257_S257x128_S1000000x128_1_0_0_1_n_n_wf
def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf
def scatter_S50000x3_S1000000x1_S1000000x3_1_0_0_1 : ScatterDims S50000x3 S1000000x1 S1000000x3 where
  updateWindowDims := [1]
  insertedWindowDims := [0]
  scatterDimsToOperandDims := [0]
  indexVectorDim := 1
  wf := scatter_S50000x3_S1000000x1_S1000000x3_1_0_0_1_wf

class Facts : Prop extends Facts₀ where

variable [Facts]
-- ==== Proof.LibSumBlocks.lean ====
/-
  A sum over an index range laid out as consecutive blocks is the sum of the blocks' sums, in any commutative additive
  monoid: over a + b + c indices, the first a, the next b (shifted by a), the last c (shifted by a + b); and the same for
  two blocks. This is what joins one product against a matrix of stacked row-blocks to the sum of the products against each block.
-/
import Mathlib.Algebra.BigOperators.Fin

open scoped BigOperators

namespace Idealize.ShloMosaic.SumBlocks

variable {β : Type*} [AddCommMonoid β]

/-- Two consecutive blocks. -/
theorem sum_two (a b : ℕ) (g : Fin (a + b) → β) :
    ∑ k, g k = (∑ j : Fin a, g ⟨j.val, by omega⟩) + ∑ j : Fin b, g ⟨a + j.val, by omega⟩ := by
  rw [Fin.sum_univ_add]; rfl

/-- Three consecutive blocks. -/
theorem sum_three (a b c : ℕ) (g : Fin (a + b + c) → β) :
    ∑ k, g k = ((∑ j : Fin a, g ⟨j.val, by omega⟩) + ∑ j : Fin b, g ⟨a + j.val, by omega⟩)
      + ∑ j : Fin c, g ⟨a + b + j.val, by omega⟩ := by
  rw [Fin.sum_univ_add, Fin.sum_univ_add]; rfl

end Idealize.ShloMosaic.SumBlocks
-- ==== Proof.EdgeLaw.lean ====
/-
  The message one edge sends, as a function of what the edge reads — the 128 features of its source node, the 128 of its
  target node, its one attribute — and of the three layers' weights: a dense layer on the 257 stacked inputs, x · σ(x),
  a second dense layer, x · σ(x) again, and a last layer without bias down to one number.

  Two arrangements of it occur. One stacks the 257 inputs into a single vector and multiplies it into the whole first
  weight matrix, inputs on the left of every product. The other keeps the three pieces apart, multiplies each into its own
  block of rows of the matrix, weights on the left of every product, and adds the three results. They are the same extended
  real: a sum over 128 + 128 + 1 consecutive indices is the sum of the three blocks' sums, and the product commutes. Nothing
  here needs an entry to be finite: only that addition and multiplication of extended reals are commutative and associative.

  x · σ(x) is written once with the logistic function σ as one operation, once with σ spelt out as 1 / (1 + e^(-x)), the 1
  being the float 1.0: the logistic function IS that quotient, at the infinities too.
-/
import Idealize.ShloMosaic.PureOps.Ideal
import Idealize.ShloMosaic.Lib.IdealHost
import proofs.«152924_j48275432407130_1_alg».proof.Proof.LibSumBlocks

noncomputable section

open scoped BigOperators

namespace Cert.EdgeLaw

open Idealize.ShloMosaic

/-- x · σ(x) on the extended reals. -/
def silu (x : EReal) : EReal := x * Ideal.logistic x

/-- σ spelt out with the float 1.0 is σ. -/
theorem silu_spelt_out (x : EReal) :
    x * Ideal.div (Ideal.ofBits .f32 0x3F800000#32) (Ideal.ofBits .f32 0x3F800000#32 + Ideal.exp (-x)) = silu x := by
  rw [Ideal.ofBits_one_f32]; rfl

/-- The 257 inputs of the first layer stacked: source features, target features, the attribute. -/
def stacked (src tgt : Fin 128 → EReal) (attr : EReal) : Fin 257 → EReal := fun j =>
  if h : j.val < 128 then src ⟨j.val, h⟩
  else if h' : j.val < 256 then tgt ⟨j.val - 128, by omega⟩
  else attr

/-- The message with the inputs stacked and on the left of every product. -/
def message (W1 : Fin 257 → Fin 128 → EReal) (b1 : Fin 128 → EReal) (W2 : Fin 128 → Fin 128 → EReal)
    (b2 : Fin 128 → EReal) (W3 : Fin 128 → EReal) (x : Fin 257 → EReal) : EReal :=
  ∑ g : Fin 128, silu ((∑ f : Fin 128, silu ((∑ j : Fin 257, x j * W1 j f) + b1 f) * W2 f g) + b2 g) * W3 g

/-- The message with the three pieces apart and the weights on the left of every product. -/
def messageApart (W1 : Fin 257 → Fin 128 → EReal) (b1 : Fin 128 → EReal) (W2 : Fin 128 → Fin 128 → EReal)
    (b2 : Fin 128 → EReal) (W3 : Fin 128 → EReal) (src tgt : Fin 128 → EReal) (attr : EReal) : EReal :=
  ∑ g : Fin 128, W3 g * silu ((∑ f : Fin 128, W2 f g *
    silu (((((∑ k : Fin 128, W1 ⟨k.val, by omega⟩ f * src k) + ∑ k : Fin 128, W1 ⟨128 + k.val, by omega⟩ f * tgt k)
      + W1 ⟨256, by omega⟩ f * attr) + b1 f))) + b2 g)

/-- The first layer's 257-term sum is the three blocks' sums. -/
theorem first_layer_apart (W1 : Fin 257 → Fin 128 → EReal) (src tgt : Fin 128 → EReal) (attr : EReal) (f : Fin 128) :
    ∑ j : Fin 257, stacked src tgt attr j * W1 j f
      = ((∑ k : Fin 128, W1 ⟨k.val, by omega⟩ f * src k) + ∑ k : Fin 128, W1 ⟨128 + k.val, by omega⟩ f * tgt k)
        + W1 ⟨256, by omega⟩ f * attr := by
  rw [SumBlocks.sum_three 128 128 1 (fun j : Fin (128 + 128 + 1) => stacked src tgt attr j * W1 j f), Fin.sum_univ_one]
  congr 1
  · congr 1
    · refine Finset.sum_congr rfl fun k _ => ?_
      have hk : k.val < 128 := k.isLt
      show stacked src tgt attr ⟨k.val, _⟩ * _ = _
      unfold stacked
      rw [dif_pos (show (⟨k.val, _⟩ : Fin 257).val < 128 from hk)]
      exact mul_comm _ _
    · refine Finset.sum_congr rfl fun k _ => ?_
      have hk : k.val < 128 := k.isLt
      show stacked src tgt attr ⟨128 + k.val, _⟩ * _ = _
      unfold stacked
      rw [dif_neg (show ¬ (⟨128 + k.val, _⟩ : Fin 257).val < 128 from by show ¬ 128 + k.val < 128; omega),
        dif_pos (show (⟨128 + k.val, _⟩ : Fin 257).val < 256 from by show 128 + k.val < 256; omega)]
      rw [mul_comm]
      congr 2
      exact Fin.ext (by show 128 + k.val - 128 = k.val; omega)
  · show stacked src tgt attr ⟨128 + 128 + (0 : Fin 1).val, _⟩ * _ = _
    unfold stacked
    rw [dif_neg (show ¬ (⟨128 + 128 + (0 : Fin 1).val, _⟩ : Fin 257).val < 128 from by show ¬ 128 + 128 + 0 < 128; omega),
      dif_neg (show ¬ (⟨128 + 128 + (0 : Fin 1).val, _⟩ : Fin 257).val < 256 from by show ¬ 128 + 128 + 0 < 256; omega)]
    exact mul_comm _ _

/-- THE LAW: the two arrangements of the message are one extended real. -/
theorem messageApart_eq (W1 : Fin 257 → Fin 128 → EReal) (b1 : Fin 128 → EReal) (W2 : Fin 128 → Fin 128 → EReal)
    (b2 : Fin 128 → EReal) (W3 : Fin 128 → EReal) (src tgt : Fin 128 → EReal) (attr : EReal) :
    messageApart W1 b1 W2 b2 W3 src tgt attr = message W1 b1 W2 b2 W3 (stacked src tgt attr) := by
  unfold messageApart message
  refine Finset.sum_congr rfl fun g _ => ?_
  rw [mul_comm]
  congr 3
  refine Finset.sum_congr rfl fun f _ => ?_
  rw [mul_comm, first_layer_apart]

end Cert.EdgeLaw

end
-- ==== Proof.TransSpec.lean ====
/-
  What one edge contributes to each of the three coordinates of its source node, before the contributions are summed node
  by node: the edge's coordinate difference, times the message the three-layer network computes from the features of the
  edge's two end nodes and the edge's attribute, times the edge's mask.

  The end nodes are named by two arrays of start indices, one entry per edge, each read as a signed integer and clamped
  into the node range [0, 49999] — what a gather does with a start index. The arrays are parameters here: whichever way a
  program computes them, the contribution depends on them only through the node each entry names.
-/
import proofs.«152924_j48275432407130_1_alg».proof.Proof.EdgeLaw
import Idealize.ShloMosaic.Lib.ValueIdx

noncomputable section

namespace Cert.TransSpec

open Idealize.ShloMosaic Idealize.ShloMosaic.ValueIdx Cert.EdgeLaw

/-- The node a start index names: the word read signed, clamped into [0, 49999]. -/
def node (w : BitVec 32) : Fin 50000 := ⟨min w.toInt.toNat (50000 - 1), by omega⟩

/-- The 128 features of the node that entry e of a start-index array names. -/
def feats (h : (⟨2, ![50000, 128]⟩ : Shape).Idx → EReal) (S : (⟨2, ![1000000, 1]⟩ : Shape).Idx → BitVec 32)
    (e : Fin 1000000) : Fin 128 → EReal := fun k => h (ix2 (node (S (ix2 e 0))) k)

/-- The message of edge e: the network of the features of its two end nodes and its attribute. -/
def edgeMessage (h : (⟨2, ![50000, 128]⟩ : Shape).Idx → EReal) (S T : (⟨2, ![1000000, 1]⟩ : Shape).Idx → BitVec 32)
    (attr : (⟨2, ![1000000, 1]⟩ : Shape).Idx → EReal)
    (W1 : (⟨2, ![257, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 1]⟩ : Shape).Idx → EReal) (e : Fin 1000000) : EReal :=
  message (fun j f => W1 (ix2 j f)) (fun f => b1 (ix1 f)) (fun f g => W2 (ix2 f g)) (fun g => b2 (ix1 g))
    (fun g => W3 (ix2 g 0)) (stacked (feats h S e) (feats h T e) (attr (ix2 e 0)))

/-- Edge e's contribution to coordinate d: difference × message × mask. -/
def trans (h : (⟨2, ![50000, 128]⟩ : Shape).Idx → EReal) (S T : (⟨2, ![1000000, 1]⟩ : Shape).Idx → BitVec 32)
    (diff : (⟨2, ![1000000, 3]⟩ : Shape).Idx → EReal) (attr mask : (⟨2, ![1000000, 1]⟩ : Shape).Idx → EReal)
    (W1 : (⟨2, ![257, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 1]⟩ : Shape).Idx → EReal) : (⟨2, ![1000000, 3]⟩ : Shape).Idx → EReal := fun i =>
  diff i * edgeMessage h S T attr W1 b1 W2 b2 W3 (i 0) * mask (ix2 (i 0) 0)

end Cert.TransSpec

end
-- ==== Proof.LibSegmentSum.lean ====
import Idealize.ShloMosaic.PureOps.Ideal.Laws
import Idealize.ShloMosaic.Lib.ValueIdx

/-!
# Segment sums: scatter-add and gather of rows read at an index, and the linear law

General facts about a "segment sum" (a scatter-add of rows into a table by an integer row index)
and the matching row gather, each read at one index, together with the linear law on the extended
reals that lets a nonnegative finite per-row weight be moved across a product with an arbitrary
vector.
-/

noncomputable section

open scoped BigOperators

namespace Cert.SegmentSum

open Idealize.ShloMosaic Idealize.ShloMosaic.ValueIdx

/-! ## The linear law on the extended reals -/

/-- A finite sum of extended reals times a nonnegative finite factor distributes:
`(∑ k ∈ T, a k) * n = ∑ k ∈ T, a k * n` when `0 ≤ n` and `n ≠ ⊤`
(no sign or finiteness condition on the summands). -/
theorem sum_mul_of_nonneg_of_ne_top {K : Type*} [DecidableEq K] (T : Finset K) (a : K → EReal)
    {n : EReal} (hn : 0 ≤ n) (hn' : n ≠ ⊤) :
    (∑ k ∈ T, a k) * n = ∑ k ∈ T, a k * n := by
  induction T using Finset.induction_on with
  | empty => simp
  | insert k T hk ih =>
    rw [Finset.sum_insert hk, Finset.sum_insert hk,
      EReal.right_distrib_of_nonneg_of_ne_top hn hn', ih]

/-- A finite sum of nonnegative extended reals times an arbitrary factor distributes:
`(∑ e ∈ S, b e) * w = ∑ e ∈ S, b e * w` when every `b e ≥ 0`
(`w` may have any sign and may be infinite). -/
theorem sum_mul_of_nonneg {E : Type*} [DecidableEq E] (S : Finset E) (b : E → EReal)
    (hb : ∀ e ∈ S, 0 ≤ b e) (w : EReal) :
    (∑ e ∈ S, b e) * w = ∑ e ∈ S, b e * w := by
  induction S using Finset.induction_on with
  | empty => simp
  | insert e S he ih =>
    have hS : ∀ e' ∈ S, 0 ≤ b e' := fun e' h' => hb e' (Finset.mem_insert_of_mem h')
    rw [Finset.sum_insert he, Finset.sum_insert he,
      EReal.right_distrib_of_nonneg (hb e (Finset.mem_insert_self e S)) (Finset.sum_nonneg hS),
      ih hS]

/-- The linear law on the extended reals: weighting each row `e` of `h` by a nonnegative
finite factor `n e` commutes with the product against an arbitrary (any sign, possibly
infinite) vector `w`, summed over any set `S` of rows:
`∑ e ∈ S, (∑ k, h e k * w k) * n e = ∑ k, (∑ e ∈ S, h e k * n e) * w k`,
for `h ≥ 0`, `0 ≤ n e ≠ ⊤`. -/
theorem sum_mul_weight_comm {E K : Type*} [DecidableEq E] [Fintype K] [DecidableEq K]
    (S : Finset E) (h : E → K → EReal) (hh : ∀ e k, 0 ≤ h e k)
    (n : E → EReal) (hn : ∀ e, 0 ≤ n e) (hn' : ∀ e, n e ≠ ⊤) (w : K → EReal) :
    ∑ e ∈ S, (∑ k, h e k * w k) * n e = ∑ k, (∑ e ∈ S, h e k * n e) * w k := by
  have h1 : ∀ e ∈ S, (∑ k, h e k * w k) * n e = ∑ k, (h e k * n e) * w k := by
    intro e _
    rw [sum_mul_of_nonneg_of_ne_top Finset.univ _ (hn e) (hn' e)]
    refine Finset.sum_congr rfl fun k _ => ?_
    rw [mul_assoc, mul_comm (w k) (n e), ← mul_assoc]
  rw [Finset.sum_congr rfl h1, Finset.sum_comm]
  refine Finset.sum_congr rfl fun k _ => ?_
  rw [sum_mul_of_nonneg S (fun e => h e k * n e) (fun e _ => EReal.mul_nonneg (hh e k) (hn e)) (w k)]

/-! ## Gather of rows read at an index -/

section Gather
variable {α : Type}

/-- The dimension numbers of a row gather `x[idx]` of a table `[N, D]` at start indices `[E, 1]`, result `[E, D]`:
offset axis `1`, collapsed axis `0`, start index map `[0]`, index vector axis `1`, slice sizes `[1, D]`. -/
abbrev rowsDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A row gather read at `(e, c)`: the table at row `idx[e, 0]`, read signed and clamped into `[0, N − 1]`,
column `c`. -/
theorem gather_rowsDims_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowsDims N E D wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowsDims N E D wf).start (ix2 e c) idx 0 + (rowsDims N E D wf).batchCoord (ix2 e c) 0
      + (rowsDims N E D wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E D wf).startIndexMap from List.mem_singleton.mpr rfl)]
    have hsi : (rowsDims N E D wf).siIdx (ix2 e c) ⟨List.idxOf (0 : Fin 2) (rowsDims N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N E D wf).start (ix2 e c) idx 1 + (rowsDims N E D wf).batchCoord (ix2 e c) 1
      + (rowsDims N E D wf).offCoord (ix2 e c) 1 = c.val
    rw [GatherDims.batchCoord_eq_zero _ _ _ List.not_mem_nil]
    have hs : (rowsDims N E D wf).start (ix2 e c) idx 1 = 0 := by
      unfold GatherDims.start
      rw [dif_neg (show (1 : Fin 2) ∉ (rowsDims N E D wf).startIndexMap from (by decide : (1 : Fin 2) ∉ ([0] : List (Fin 2))))]
    rw [hs]
    simp only [Nat.add_zero, Nat.zero_add]
    unfold GatherDims.offCoord
    rw [dif_pos ((GatherDims.mem_sKept _ _).mpr ⟨(by decide : (1 : Fin 2) ∉ ([0] : List (Fin 2))), List.not_mem_nil⟩)]
    rfl

/-- GATHER OF ROWS READ AT AN INDEX, for any record with the row gather's dimension numbers: element `(e, c)` of
`x[idx]` is the table at row `idx[e, 0]`, read signed and clamped into `[0, N − 1]`, column `c`. -/
theorem gather_rows_apply {N E D w : Nat} (hN : 0 < N)
    (g : GatherDims ⟨2, ![N, D]⟩ ⟨2, ![E, 1]⟩ ⟨2, ![E, D]⟩)
    (ho : g.offsetDims = [1]) (hc : g.collapsedSliceDims = [0]) (hob : g.operandBatchingDims = [])
    (hsb : g.startIndicesBatchingDims = []) (hm : g.startIndexMap = [0]) (hv : g.indexVectorDim = 1)
    (hss : g.sliceSizes = ![1, D])
    (x : (⟨2, ![N, D]⟩ : Shape).Idx → α) (idx : IVec ⟨2, ![E, 1]⟩ w) (e : Fin E) (c : Fin D) :
    Host.gather g x idx (ix2 e c)
      = x (ix2 ⟨min (idx (ix2 e 0)).toInt.toNat (N - 1), by omega⟩ c) := by
  obtain ⟨od, cd, ob, sb, sm, iv, ss, wf⟩ := g
  dsimp only at ho hc hob hsb hm hv hss
  subst ho hc hob hsb hm hv hss
  exact gather_rowsDims_apply hN wf x idx e c

/-- The dimension numbers of a gather `x[idx]` of a flat table `[N]` at start indices `[E, 1]`, result `[E]`:
no offset axis, collapsed axis `0`, start index map `[0]`, index vector axis `1`, slice sizes `[1]`. -/
abbrev tableDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A flat-table gather read at `e`: the table at `idx[e, 0]`, read signed and clamped into `[0, N − 1]`. -/
theorem gather_tableDims_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (tableDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (tableDims N E wf).start (ix1 e) idx 0 + (tableDims N E wf).batchCoord (ix1 e) 0
    + (tableDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (tableDims N E wf).startIndexMap from List.mem_singleton.mpr rfl)]
  have hsi : (tableDims N E wf).siIdx (ix1 e) ⟨List.idxOf (0 : Fin 1) (tableDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- GATHER FROM A FLAT TABLE READ AT AN INDEX, for any record with those dimension numbers: element `e` of `x[idx]`
is the table at `idx[e, 0]`, read signed and clamped into `[0, N − 1]`. -/
theorem gather_table_apply {N E w : Nat} (hN : 0 < N)
    (g : GatherDims ⟨1, ![N]⟩ ⟨2, ![E, 1]⟩ ⟨1, ![E]⟩)
    (ho : g.offsetDims = []) (hc : g.collapsedSliceDims = [0]) (hob : g.operandBatchingDims = [])
    (hsb : g.startIndicesBatchingDims = []) (hm : g.startIndexMap = [0]) (hv : g.indexVectorDim = 1)
    (hss : g.sliceSizes = ![1])
    (x : (⟨1, ![N]⟩ : Shape).Idx → α) (idx : IVec ⟨2, ![E, 1]⟩ w) (e : Fin E) :
    Host.gather g x idx (ix1 e)
      = x (ix1 ⟨min (idx (ix2 e 0)).toInt.toNat (N - 1), by omega⟩) := by
  obtain ⟨od, cd, ob, sb, sm, iv, ss, wf⟩ := g
  dsimp only at ho hc hob hsb hm hv hss
  subst ho hc hob hsb hm hv hss
  exact gather_tableDims_apply hN wf x idx e

end Gather

/-! ## Scatter-add of rows read at an index -/

section Scatter

/-- The row a scatter index word addresses in a table of `N` rows: the word read as a signed integer when that is in
`[0, N)`, no row otherwise (an update whose index leaves the table is dropped). -/
def rowTarget (N : Nat) (w : BitVec 32) : Option (Fin N) :=
  if h : 0 ≤ w.toInt ∧ w.toInt < N then some ⟨w.toInt.toNat, by omega⟩ else none

/-- The dimension numbers of a row scatter into a table `[N, D]` at scatter indices `[E, 1]` with updates `[E, D]`:
update window axis `1`, inserted window axis `0`, scatter-dims-to-operand-dims `[0]`, index vector axis `1`. -/
abbrev rowsScatter (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D : Nat} (wf : ScatterDims.WF ⟨2, ![N, D]⟩ ⟨2, ![E, 1]⟩ ⟨2, ![E, D]⟩ [1] [0] [0] 1)
  (idx : IVec ⟨2, ![E, 1]⟩ 32) (e : Fin E) (c : Fin D)

/-- On the row axis the window of update `(e, c)` starts at the index word `idx[e, 0]` read signed. -/
theorem rowsScatter_start0 :
    (rowsScatter N E D wf).start (ix2 e c) idx 0 = (idx (ix2 e 0)).toInt := by
  unfold ScatterDims.start
  rw [dif_pos (show (0 : Fin 2) ∈ (rowsScatter N E D wf).scatterDimsToOperandDims from List.mem_singleton.mpr rfl)]
  have hsi : (rowsScatter N E D wf).siIdx (ix2 e c)
      ⟨List.idxOf (0 : Fin 2) (rowsScatter N E D wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at `0`. -/
theorem rowsScatter_start1 : (rowsScatter N E D wf).start (ix2 e c) idx 1 = 0 := by
  unfold ScatterDims.start
  rw [dif_neg (show (1 : Fin 2) ∉ (rowsScatter N E D wf).scatterDimsToOperandDims from
    (by decide : (1 : Fin 2) ∉ ([0] : List (Fin 2))))]

/-- The row axis is inserted: no window coordinate there. -/
theorem rowsScatter_window0 : (rowsScatter N E D wf).window (ix2 e c) 0 = 0 := by
  unfold ScatterDims.window
  rw [dif_neg (show (0 : Fin 2) ∉ (rowsScatter N E D wf).sKept from
    (by decide : (0 : Fin 2) ∉ (List.finRange 2).filter (· ∉ ([0] : List (Fin 2)))))]

/-- The window coordinate on the column axis is the update's column. -/
theorem rowsScatter_window1 : (rowsScatter N E D wf).window (ix2 e c) 1 = c.val := by
  unfold ScatterDims.window
  rw [dif_pos (show (1 : Fin 2) ∈ (rowsScatter N E D wf).sKept from
    (by decide : (1 : Fin 2) ∈ (List.finRange 2).filter (· ∉ ([0] : List (Fin 2)))))]
  rfl

/-- ROW TARGET (literal dimension numbers): update `(e, c)` of a row scatter lands at `(i, c)` where `i` is the row
its index word `idx[e, 0]` addresses, and nowhere when that word leaves `[0, N)`. -/
theorem rowsScatter_resultIdx? :
    (rowsScatter N E D wf).resultIdx? (ix2 e c) idx
      = (rowTarget N (idx (ix2 e 0))).map (fun i => ix2 i c) := by
  have h0s := rowsScatter_start0 wf idx e c
  have h0w := rowsScatter_window0 wf e c
  have h1s := rowsScatter_start1 wf idx e c
  have h1w := rowsScatter_window1 wf e c
  unfold ScatterDims.resultIdx? rowTarget
  by_cases h : 0 ≤ (idx (ix2 e 0)).toInt ∧ (idx (ix2 e 0)).toInt < N
  · have hall : ∀ a : Fin 2, 0 ≤ (rowsScatter N E D wf).start (ix2 e c) idx a + (rowsScatter N E D wf).window (ix2 e c) a
        ∧ (rowsScatter N E D wf).start (ix2 e c) idx a + (rowsScatter N E D wf).window (ix2 e c) a
          < ((⟨2, ![N, D]⟩ : Shape).size a : Int) := by
      intro a
      match a with
      | ⟨0, _⟩ =>
        show 0 ≤ (rowsScatter N E D wf).start (ix2 e c) idx 0 + (rowsScatter N E D wf).window (ix2 e c) 0
          ∧ (rowsScatter N E D wf).start (ix2 e c) idx 0 + (rowsScatter N E D wf).window (ix2 e c) 0 < (N : Int)
        rw [h0s, h0w]; omega
      | ⟨1, _⟩ =>
        show 0 ≤ (rowsScatter N E D wf).start (ix2 e c) idx 1 + (rowsScatter N E D wf).window (ix2 e c) 1
          ∧ (rowsScatter N E D wf).start (ix2 e c) idx 1 + (rowsScatter N E D wf).window (ix2 e c) 1 < (D : Int)
        rw [h1s, h1w]; have := c.isLt; omega
    rw [dif_pos hall, dif_pos h, Option.map_some]
    congr 1
    funext a
    refine Fin.ext ?_
    match a with
    | ⟨0, _⟩ =>
      show ((rowsScatter N E D wf).start (ix2 e c) idx 0 + (rowsScatter N E D wf).window (ix2 e c) 0).toNat
        = (idx (ix2 e 0)).toInt.toNat
      rw [h0s, h0w]; simp
    | ⟨1, _⟩ =>
      show ((rowsScatter N E D wf).start (ix2 e c) idx 1 + (rowsScatter N E D wf).window (ix2 e c) 1).toNat = c.val
      rw [h1s, h1w]; simp
  · rw [dif_neg h, dif_neg]
    · rfl
    · intro hall
      have h0 : 0 ≤ (rowsScatter N E D wf).start (ix2 e c) idx 0 + (rowsScatter N E D wf).window (ix2 e c) 0
          ∧ (rowsScatter N E D wf).start (ix2 e c) idx 0 + (rowsScatter N E D wf).window (ix2 e c) 0 < (N : Int) := hall 0
      rw [h0s, h0w] at h0
      exact h (by omega)

/-- ROW TARGET, for any record with the row scatter's dimension numbers: update `(e, c)` lands at `(i, c)` where `i`
is the row its index word `idx[e, 0]` addresses, and nowhere when that word leaves `[0, N)`. -/
theorem resultIdx?_rows (d : ScatterDims ⟨2, ![N, D]⟩ ⟨2, ![E, 1]⟩ ⟨2, ![E, D]⟩)
    (hu : d.updateWindowDims = [1]) (hi : d.insertedWindowDims = [0]) (hs : d.scatterDimsToOperandDims = [0])
    (hv : d.indexVectorDim = 1) :
    d.resultIdx? (ix2 e c) idx = (rowTarget N (idx (ix2 e 0))).map (fun i => ix2 i c) := by
  obtain ⟨uw, iw, sd, iv, wf'⟩ := d
  dsimp only at hu hi hs hv
  subst hu hi hs hv
  exact rowsScatter_resultIdx? wf' idx e c

/-- Two rank-2 indices agree exactly when both coordinates do. -/
theorem ix2_eq_ix2_iff {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- SCATTER-ADD OF ROWS READ AT AN INDEX (on the extended reals): element `(i, c)` of the result is the operand's plus
the sum of column `c` of every update row `e` whose index word addresses row `i`. -/
theorem hostScatterAdd_rows_apply (d : ScatterDims ⟨2, ![N, D]⟩ ⟨2, ![E, 1]⟩ ⟨2, ![E, D]⟩)
    (hu : d.updateWindowDims = [1]) (hi : d.insertedWindowDims = [0]) (hs : d.scatterDimsToOperandDims = [0])
    (hv : d.indexVectorDim = 1)
    (x : (⟨2, ![N, D]⟩ : Shape).Idx → EReal) (upd : (⟨2, ![E, D]⟩ : Shape).Idx → EReal) (i : Fin N) :
    Ideal.hostScatterAdd d x idx upd (ix2 i c)
      = x (ix2 i c) + ∑ e ∈ Finset.univ.filter (fun e : Fin E => rowTarget N (idx (ix2 e 0)) = some i),
          upd (ix2 e c) := by
  unfold Ideal.hostScatterAdd
  congr 1
  rw [Finset.sum_filter, Finset.sum_filter, sum_idx2]
  refine Finset.sum_congr rfl fun e _ => ?_
  simp only [resultIdx?_rows idx e _ d hu hi hs hv]
  cases hr : rowTarget N (idx (ix2 e 0)) with
  | none => simp
  | some i' =>
    simp only [Option.map_some, Option.some.injEq, ix2_eq_ix2_iff]
    by_cases hii : i' = i
    · subst hii
      simp
    · simp [hii]

end Scatter

/-! ## Scatter-add into a flat table read at an index -/

section ScatterTable

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Two rank-1 indices agree exactly when their coordinates do. -/
theorem ix1_eq_ix1_iff {n : Nat} (a a' : Fin n) : ix1 a = ix1 a' ↔ a = a' := by
  constructor
  · intro h
    exact congrFun h 0
  · rintro rfl; rfl

/-- The dimension numbers of a scatter into a flat table `[N]` at scatter indices `[E, 1]` with updates `[E]`:
no update window axis, inserted window axis `0`, scatter-dims-to-operand-dims `[0]`, index vector axis `1`. -/
abbrev tableScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E : Nat} (wf : ScatterDims.WF ⟨1, ![N]⟩ ⟨2, ![E, 1]⟩ ⟨1, ![E]⟩ [] [0] [0] 1)
  (idx : IVec ⟨2, ![E, 1]⟩ 32) (e : Fin E)

/-- The window of update `e` starts at the index word `idx[e, 0]` read signed. -/
theorem tableScatter_start0 :
    (tableScatter N E wf).start (ix1 e) idx 0 = (idx (ix2 e 0)).toInt := by
  unfold ScatterDims.start
  rw [dif_pos (show (0 : Fin 1) ∈ (tableScatter N E wf).scatterDimsToOperandDims from List.mem_singleton.mpr rfl)]
  have hsi : (tableScatter N E wf).siIdx (ix1 e)
      ⟨List.idxOf (0 : Fin 1) (tableScatter N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The table's one axis is inserted: no window coordinate there. -/
theorem tableScatter_window0 : (tableScatter N E wf).window (ix1 e) 0 = 0 := by
  unfold ScatterDims.window
  rw [dif_neg (show (0 : Fin 1) ∉ (tableScatter N E wf).sKept from
    (by decide : (0 : Fin 1) ∉ (List.finRange 1).filter (· ∉ ([0] : List (Fin 1)))))]

/-- TARGET (literal dimension numbers): update `e` of a flat-table scatter lands at the entry its index word
`idx[e, 0]` addresses, and nowhere when that word leaves `[0, N)`. -/
theorem tableScatter_resultIdx? :
    (tableScatter N E wf).resultIdx? (ix1 e) idx = (rowTarget N (idx (ix2 e 0))).map (fun i => ix1 i) := by
  have h0s := tableScatter_start0 wf idx e
  have h0w := tableScatter_window0 wf e
  unfold ScatterDims.resultIdx? rowTarget
  by_cases h : 0 ≤ (idx (ix2 e 0)).toInt ∧ (idx (ix2 e 0)).toInt < N
  · have hall : ∀ a : Fin 1, 0 ≤ (tableScatter N E wf).start (ix1 e) idx a + (tableScatter N E wf).window (ix1 e) a
        ∧ (tableScatter N E wf).start (ix1 e) idx a + (tableScatter N E wf).window (ix1 e) a
          < ((⟨1, ![N]⟩ : Shape).size a : Int) := by
      intro a
      obtain rfl : a = 0 := Subsingleton.elim _ _
      show 0 ≤ (tableScatter N E wf).start (ix1 e) idx 0 + (tableScatter N E wf).window (ix1 e) 0
        ∧ (tableScatter N E wf).start (ix1 e) idx 0 + (tableScatter N E wf).window (ix1 e) 0 < (N : Int)
      rw [h0s, h0w]; omega
    rw [dif_pos hall, dif_pos h, Option.map_some]
    congr 1
    funext a
    obtain rfl : a = 0 := Subsingleton.elim _ _
    refine Fin.ext ?_
    show ((tableScatter N E wf).start (ix1 e) idx 0 + (tableScatter N E wf).window (ix1 e) 0).toNat
      = (idx (ix2 e 0)).toInt.toNat
    rw [h0s, h0w]; simp
  · rw [dif_neg h, dif_neg]
    · rfl
    · intro hall
      have h0 : 0 ≤ (tableScatter N E wf).start (ix1 e) idx 0 + (tableScatter N E wf).window (ix1 e) 0
          ∧ (tableScatter N E wf).start (ix1 e) idx 0 + (tableScatter N E wf).window (ix1 e) 0 < (N : Int) := hall 0
      rw [h0s, h0w] at h0
      exact h (by omega)

/-- TARGET, for any record with the flat-table scatter's dimension numbers. -/
theorem resultIdx?_table (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1) :
    d.resultIdx? (ix1 e) idx = (rowTarget N (idx (ix2 e 0))).map (fun i => ix1 i) := by
  obtain ⟨uw, iw, sd, iv, wf'⟩ := d
  dsimp only at hu hi hs hv
  subst hu hi hs hv
  exact tableScatter_resultIdx? wf' idx e

/-- SCATTER-ADD INTO A FLAT TABLE READ AT AN INDEX (on the extended reals): entry `i` of the result is the operand's
plus the sum of every update `e` whose index word addresses `i`. -/
theorem hostScatterAdd_table_apply (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (x : (⟨1, ![N]⟩ : Shape).Idx → EReal) (upd : (⟨1, ![E]⟩ : Shape).Idx → EReal) (i : Fin N) :
    Ideal.hostScatterAdd d x idx upd (ix1 i)
      = x (ix1 i) + ∑ e ∈ Finset.univ.filter (fun e : Fin E => rowTarget N (idx (ix2 e 0)) = some i),
          upd (ix1 e) := by
  unfold Ideal.hostScatterAdd
  congr 1
  rw [Finset.sum_filter, Finset.sum_filter, sum_idx1]
  refine Finset.sum_congr rfl fun e _ => ?_
  rw [resultIdx?_table idx e d hu hi hs hv]
  cases hr : rowTarget N (idx (ix2 e 0)) with
  | none => simp
  | some i' => simp only [Option.map_some, Option.some.injEq, ix1_eq_ix1_iff]

end ScatterTable

end Cert.SegmentSum

end
-- ==== Proof.RefStacked.lean ====
/-
  The reference's first-layer input. It gathers the rows of the node-feature table named by the two start-index arrays
  and joins them, with the edge attributes, along the feature axis into one array of 257 columns. Read at edge e and
  column j, that array is the stacked input of edge e: the source node's feature j for j < 128, the target node's
  feature j − 128 for 128 ≤ j < 256, the edge's attribute at j = 256.
-/
import proofs.«152924_j48275432407130_1_alg».proof.Proof.Gen.ReferenceIdeal.Read
import proofs.«152924_j48275432407130_1_alg».proof.Proof.TransSpec
import proofs.«152924_j48275432407130_1_alg».proof.Proof.LibSegmentSum

noncomputable section

namespace Cert.RefTrans

open Idealize.ShloMosaic Idealize.ShloMosaic.ValueIdx Cert.ReferenceIdeal Cert.ReferenceIdeal.Read Cert.EdgeLaw Cert.TransSpec

variable (x0 : (⟨S50000x128, .f32⟩ : BufTy).Contents (Elt Ideal)) (x2 : (⟨S2x1000000, .i32⟩ : BufTy).Contents (Elt Ideal))
  (x4 : (⟨S1000000x1, .f32⟩ : BufTy).Contents (Elt Ideal))

/-- The gather of source rows at (e, k): feature k of the node entry e names. -/
theorem source_rows (e : Fin 1000000) (k : Fin 128) :
    val_main_v10 (F := Ideal) x0 x2 (ix2 e k) = feats x0 (val_main_v9 (F := Ideal) x2) e k := by
  unfold val_main_v10
  exact Cert.SegmentSum.gather_rows_apply (by decide) _ rfl rfl rfl rfl rfl rfl rfl x0 _ e k

/-- The gather of target rows at (e, k). -/
theorem target_rows (e : Fin 1000000) (k : Fin 128) :
    val_main_v17 (F := Ideal) x0 x2 (ix2 e k) = feats x0 (val_main_v16 (F := Ideal) x2) e k := by
  unfold val_main_v17
  exact Cert.SegmentSum.gather_rows_apply (by decide) _ rfl rfl rfl rfl rfl rfl rfl x0 _ e k

/-- The joined array at (e, j) is the stacked input of edge e at j. -/
theorem joined_apply (e : Fin 1000000) (j : Fin 257) :
    val_main_v18 (F := Ideal) x0 x2 x4 (ix2 e j)
      = stacked (feats x0 (val_main_v9 (F := Ideal) x2) e) (feats x0 (val_main_v16 (F := Ideal) x2) e) (x4 (ix2 e 0)) j := by
  unfold val_main_v18 stacked
  by_cases h1 : j.val < 128
  · rw [dif_pos h1, ← source_rows]
    refine concatenate_apply_piece (1 : Fin 2) _ _ (ix2 e j) 0 ?hk S1000000x128 (val_main_v10 (F := Ideal) x0 x2) ?hxk rfl 0 ?hpre
      (ix2 e ⟨j.val, h1⟩) (fun b hb => ?hi) ?ha
    case hk => show (0 : Nat) < 3; omega
    case hxk => rfl
    case hpre => rfl
    case hi =>
      match b with
      | ⟨0, _⟩ => rfl
      | ⟨1, _⟩ => exact absurd rfl hb
    case ha => show 0 + j.val = j.val; omega
  · rw [dif_neg h1]
    by_cases h2 : j.val < 256
    · rw [dif_pos h2, ← target_rows]
      refine concatenate_apply_piece (1 : Fin 2) _ _ (ix2 e j) 1 ?hk S1000000x128 (val_main_v17 (F := Ideal) x0 x2) ?hxk rfl 128 ?hpre
        (ix2 e ⟨j.val - 128, by omega⟩) (fun b hb => ?hi) ?ha
      case hk => show (1 : Nat) < 3; omega
      case hxk => rfl
      case hpre => rfl
      case hi =>
        match b with
        | ⟨0, _⟩ => rfl
        | ⟨1, _⟩ => exact absurd rfl hb
      case ha => show 128 + (j.val - 128) = j.val; omega
    · rw [dif_neg h2]
      have hj : j.val = 256 := by have := j.isLt; omega
      refine concatenate_apply_piece (1 : Fin 2) _ _ (ix2 e j) 2 ?hk S1000000x1 x4 ?hxk rfl 256 ?hpre
        (ix2 e 0) (fun b hb => ?hi) ?ha
      case hk => show (2 : Nat) < 3; omega
      case hxk => rfl
      case hpre => rfl
      case hi =>
        match b with
        | ⟨0, _⟩ => rfl
        | ⟨1, _⟩ => exact absurd rfl hb
      case ha => show 256 + 0 = j.val; omega

end Cert.RefTrans

end
-- ==== Proof.RefLayers.lean ====
/-
  The reference's per-edge array, layer by layer, read at an index: the first dense layer on the stacked input plus its
  bias; x · σ(x) with σ spelt out as 1 / (1 + e^(-x)); the second dense layer plus its bias; x · σ(x) again; the last
  layer down to one number per edge; and that number times the coordinate difference times the mask. Each product of
  matrices is, entry by entry, a sum over the contracted axis; a bias row and a column of per-edge numbers are read where
  the broadcast puts them. Together: the per-edge array is the specification's contribution of every edge.
-/
import proofs.«152924_j48275432407130_1_alg».proof.Proof.RefStacked

noncomputable section

open scoped BigOperators

namespace Cert.RefTrans

open Idealize.ShloMosaic Idealize.ShloMosaic.ValueIdx Cert.ReferenceIdeal Cert.ReferenceIdeal.Read Cert.EdgeLaw Cert.TransSpec

variable (x0 : (⟨S50000x128, .f32⟩ : BufTy).Contents (Elt Ideal)) (x2 : (⟨S2x1000000, .i32⟩ : BufTy).Contents (Elt Ideal))
  (x3 : (⟨S1000000x3, .f32⟩ : BufTy).Contents (Elt Ideal))
  (x4 x6 : (⟨S1000000x1, .f32⟩ : BufTy).Contents (Elt Ideal)) (x7 : (⟨S257x128, .f32⟩ : BufTy).Contents (Elt Ideal))
  (x8 : (⟨S128, .f32⟩ : BufTy).Contents (Elt Ideal)) (x9 : (⟨S128x128, .f32⟩ : BufTy).Contents (Elt Ideal))
  (x10 : (⟨S128, .f32⟩ : BufTy).Contents (Elt Ideal)) (x11 : (⟨S128x1, .f32⟩ : BufTy).Contents (Elt Ideal))

/-- The stacked input of edge e, from the reference's two start-index arrays. -/
abbrev input (e : Fin 1000000) : Fin 257 → EReal :=
  stacked (feats x0 (val_main_v9 (F := Ideal) x2) e) (feats x0 (val_main_v16 (F := Ideal) x2) e) (x4 (ix2 e 0))

/-- The first layer before its activation, at edge e and unit f. -/
def hidden1 (e : Fin 1000000) (f : Fin 128) : EReal := (∑ j : Fin 257, input x0 x2 x4 e j * x7 (ix2 j f)) + x8 (ix1 f)

/-- The second layer before its activation, at edge e and unit g. -/
def hidden2 (e : Fin 1000000) (g : Fin 128) : EReal :=
  (∑ f : Fin 128, silu (hidden1 x0 x2 x4 x7 x8 e f) * x9 (ix2 f g)) + x10 (ix1 g)

theorem first_dense (e : Fin 1000000) (f : Fin 128) :
    val_main_v22 (F := Ideal) x0 x2 x4 x7 x8 (ix2 e f) = hidden1 x0 x2 x4 x7 x8 e f := by
  have el : ∀ k : Fin 257, lidx_main_v19 (ix2 e f) k = ix2 e k := fun k => funext fun a => Fin.ext (by
    match a with
    | ⟨0, _⟩ => rfl
    | ⟨1, _⟩ => rfl)
  have er : ∀ k : Fin 257, ridx_main_v19 (ix2 e f) k = ix2 k f := fun k => funext fun a => Fin.ext (by
    match a with
    | ⟨0, _⟩ => rfl
    | ⟨1, _⟩ => rfl)
  have eb : idx_main_v20 (idx_main_v21 (ix2 e f)) = ix1 f := funext fun a => Fin.ext (by
    match a with
    | ⟨0, _⟩ => rfl)
  rw [val_main_v22_apply, val_main_v19_apply, val_main_v21_apply, val_main_v20_apply, eb]
  simp only [el, er, joined_apply, Ideal.addf_def]
  rfl

theorem first_activation (e : Fin 1000000) (f : Fin 128) :
    val_main_v23 (F := Ideal) x0 x2 x4 x7 x8 (ix2 e f) = silu (hidden1 x0 x2 x4 x7 x8 e f) := by
  rw [val_main_v23_apply, val_main_call0_v5_apply, val_main_call0_v4_apply, val_main_call0_cst_0_apply,
    val_main_call0_v3_apply, val_main_call0_v2_apply, val_main_call0_cst_apply, val_main_call0_v1_apply,
    val_main_call0_v0_apply, first_dense]
  simp only [Ideal.mulf_def, Ideal.hostDivf_def, Ideal.addf_def, Ideal.hostUnary_exp_def, Ideal.hostNegf_def,
    Ideal.negf_def, Ideal.ofBits_def]
  exact silu_spelt_out _

theorem second_dense (e : Fin 1000000) (g : Fin 128) :
    val_main_v27 (F := Ideal) x0 x2 x4 x7 x8 x9 x10 (ix2 e g) = hidden2 x0 x2 x4 x7 x8 x9 x10 e g := by
  have el : ∀ k : Fin 128, lidx_main_v24 (ix2 e g) k = ix2 e k := fun k => funext fun a => Fin.ext (by
    match a with
    | ⟨0, _⟩ => rfl
    | ⟨1, _⟩ => rfl)
  have er : ∀ k : Fin 128, ridx_main_v24 (ix2 e g) k = ix2 k g := fun k => funext fun a => Fin.ext (by
    match a with
    | ⟨0, _⟩ => rfl
    | ⟨1, _⟩ => rfl)
  have eb : idx_main_v25 (idx_main_v26 (ix2 e g)) = ix1 g := funext fun a => Fin.ext (by
    match a with
    | ⟨0, _⟩ => rfl)
  rw [val_main_v27_apply, val_main_v24_apply, val_main_v26_apply, val_main_v25_apply, eb]
  simp only [el, er, first_activation, Ideal.addf_def]
  rfl

theorem second_activation (e : Fin 1000000) (g : Fin 128) :
    val_main_v28 (F := Ideal) x0 x2 x4 x7 x8 x9 x10 (ix2 e g) = silu (hidden2 x0 x2 x4 x7 x8 x9 x10 e g) := by
  rw [val_main_v28_apply, val_main_call1_v5_apply, val_main_call1_v4_apply, val_main_call1_cst_0_apply,
    val_main_call1_v3_apply, val_main_call1_v2_apply, val_main_call1_cst_apply, val_main_call1_v1_apply,
    val_main_call1_v0_apply, second_dense]
  simp only [Ideal.mulf_def, Ideal.hostDivf_def, Ideal.addf_def, Ideal.hostUnary_exp_def, Ideal.hostNegf_def,
    Ideal.negf_def, Ideal.ofBits_def]
  exact silu_spelt_out _

/-- The last layer: one number per edge, the specification's message. -/
theorem last_dense (e : Fin 1000000) :
    val_main_v29 (F := Ideal) x0 x2 x4 x7 x8 x9 x10 x11 (ix2 e 0)
      = edgeMessage x0 (val_main_v9 (F := Ideal) x2) (val_main_v16 (F := Ideal) x2) x4 x7 x8 x9 x10 x11 e := by
  have el : ∀ k : Fin 128, lidx_main_v29 (ix2 e 0) k = ix2 e k := fun k => funext fun a => Fin.ext (by
    match a with
    | ⟨0, _⟩ => rfl
    | ⟨1, _⟩ => rfl)
  have er : ∀ k : Fin 128, ridx_main_v29 (ix2 e 0) k = ix2 k 0 := fun k => funext fun a => Fin.ext (by
    match a with
    | ⟨0, _⟩ => rfl
    | ⟨1, _⟩ => rfl)
  rw [val_main_v29_apply]
  simp only [el, er, second_activation]
  rfl

/-- THE REFERENCE'S PER-EDGE ARRAY is the specification's. -/
theorem per_edge_eq :
    val_main_v33 (F := Ideal) x0 x2 x3 x4 x6 x7 x8 x9 x10 x11
      = trans x0 (val_main_v9 (F := Ideal) x2) (val_main_v16 (F := Ideal) x2) x3 x4 x6 x7 x8 x9 x10 x11 := by
  funext i
  obtain ⟨e, d, rfl⟩ : ∃ (e : Fin 1000000) (d : Fin 3), i = ix2 e d := ⟨i 0, i 1, eq_ix2 i⟩
  have e30 : idx_main_v30 (ix2 e d) = ix2 e 0 := funext fun a => Fin.ext (by
    match a with
    | ⟨0, _⟩ => rfl
    | ⟨1, _⟩ => rfl)
  have e32 : idx_main_v32 (ix2 e d) = ix2 e 0 := funext fun a => Fin.ext (by
    match a with
    | ⟨0, _⟩ => rfl
    | ⟨1, _⟩ => rfl)
  rw [val_main_v33_apply, val_main_v31_apply, val_main_v32_apply, val_main_v30_apply, e30, e32, last_dense]
  rfl

end Cert.RefTrans

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.KernelPayload.lean ====
/-
  What the kernel's body computes for one block of 8192 edges, read at one entry.

  The body holds everything feature-major: an array of shape [features, 8192], one column per edge of the block. Its
  first layer is three pieces added up — the source-feature block against one 128 × 128 block of weights, the
  target-feature block against another, the attribute row against a weight column — plus a bias column; then x · σ(x);
  a second 128 × 128 product plus a bias column; x · σ(x); a 1 × 128 product down to one row of numbers, one per edge;
  and that row, spread over the three coordinate rows, times the coordinate differences times the mask row.

  Entry by entry a product of matrices started from zero is the sum over the contracted axis, a column spread along the
  edges is the column's entry in that row, a row spread down the features is the row's entry in that column. Changes of
  float format are the identity on the extended reals. So entry (d, j) of the block is: difference (d, j) × the message
  of column j, in the arrangement that keeps the three pieces apart × mask j.
-/
import proofs.«152924_j48275432407130_1_alg».proof.Proof.Gen.KernelIdeal.Frame
import proofs.«152924_j48275432407130_1_alg».proof.Proof.EdgeLaw
import proofs.«152924_j48275432407130_1_alg».proof.Proof.LibDotInner
import Idealize.ShloMosaic.Lib.Pipeline.Value
import Idealize.ShloMosaic.Lib.ValueIdx
import Idealize.ShloMosaic.PureOps.Ideal.Laws

noncomputable section

open scoped BigOperators

namespace Cert.KernelIdeal.Body

open Idealize.ShloMosaic Idealize.ShloMosaic.ValueIdx Cert.KernelIdeal Cert.KernelIdeal.Gen Cert.EdgeLaw

/-! ## The two products' coordinates -/

theorem square_l0 (j : S128x8192.Idx) (q : dot_S128x128_S128x8192_S128x8192_1_0_0_1_n_n.contr.Idx) :
    (dot_S128x128_S128x8192_S128x8192_1_0_0_1_n_n.lhsIdx j q 0).val = (j 0).val := by
  unfold DotDims.lhsIdx
  rw [dif_neg (show ¬(0 : Fin S128x128.rank) ∈ dot_S128x128_S128x8192_S128x8192_1_0_0_1_n_n.lhsBatch by decide),
    dif_pos (show (0 : Fin S128x128.rank) ∈ dot_S128x128_S128x8192_S128x8192_1_0_0_1_n_n.lhsNonContracting by decide)]
  rfl
theorem square_l1 (j : S128x8192.Idx) (q : dot_S128x128_S128x8192_S128x8192_1_0_0_1_n_n.contr.Idx) :
    (dot_S128x128_S128x8192_S128x8192_1_0_0_1_n_n.lhsIdx j q 1).val = (q ⟨0, by decide⟩).val :=
  dot_S128x128_S128x8192_S128x8192_1_0_0_1_n_n.lhsIdx_val_of_single rfl j q
theorem square_r0 (j : S128x8192.Idx) (q : dot_S128x128_S128x8192_S128x8192_1_0_0_1_n_n.contr.Idx) :
    (dot_S128x128_S128x8192_S128x8192_1_0_0_1_n_n.rhsIdx j q 0).val = (q ⟨0, by decide⟩).val :=
  dot_S128x128_S128x8192_S128x8192_1_0_0_1_n_n.rhsIdx_val_of_single rfl j q
theorem square_r1 (j : S128x8192.Idx) (q : dot_S128x128_S128x8192_S128x8192_1_0_0_1_n_n.contr.Idx) :
    (dot_S128x128_S128x8192_S128x8192_1_0_0_1_n_n.rhsIdx j q 1).val = (j 1).val := by
  unfold DotDims.rhsIdx
  rw [dif_neg (show ¬(1 : Fin S128x8192.rank) ∈ dot_S128x128_S128x8192_S128x8192_1_0_0_1_n_n.rhsBatch by decide),
    dif_pos (show (1 : Fin S128x8192.rank) ∈ dot_S128x128_S128x8192_S128x8192_1_0_0_1_n_n.rhsNonContracting by decide)]
  rfl

theorem row_l0 (j : S1x8192.Idx) (q : dot_S1x128_S128x8192_S1x8192_1_0_0_1_n_n.contr.Idx) :
    (dot_S1x128_S128x8192_S1x8192_1_0_0_1_n_n.lhsIdx j q 0).val = (j 0).val := by
  unfold DotDims.lhsIdx
  rw [dif_neg (show ¬(0 : Fin S1x128.rank) ∈ dot_S1x128_S128x8192_S1x8192_1_0_0_1_n_n.lhsBatch by decide),
    dif_pos (show (0 : Fin S1x128.rank) ∈ dot_S1x128_S128x8192_S1x8192_1_0_0_1_n_n.lhsNonContracting by decide)]
  rfl
theorem row_l1 (j : S1x8192.Idx) (q : dot_S1x128_S128x8192_S1x8192_1_0_0_1_n_n.contr.Idx) :
    (dot_S1x128_S128x8192_S1x8192_1_0_0_1_n_n.lhsIdx j q 1).val = (q ⟨0, by decide⟩).val :=
  dot_S1x128_S128x8192_S1x8192_1_0_0_1_n_n.lhsIdx_val_of_single rfl j q
theorem row_r0 (j : S1x8192.Idx) (q : dot_S1x128_S128x8192_S1x8192_1_0_0_1_n_n.contr.Idx) :
    (dot_S1x128_S128x8192_S1x8192_1_0_0_1_n_n.rhsIdx j q 0).val = (q ⟨0, by decide⟩).val :=
  dot_S1x128_S128x8192_S1x8192_1_0_0_1_n_n.rhsIdx_val_of_single rfl j q
theorem row_r1 (j : S1x8192.Idx) (q : dot_S1x128_S128x8192_S1x8192_1_0_0_1_n_n.contr.Idx) :
    (dot_S1x128_S128x8192_S1x8192_1_0_0_1_n_n.rhsIdx j q 1).val = (j 1).val := by
  unfold DotDims.rhsIdx
  rw [dif_neg (show ¬(1 : Fin S128x8192.rank) ∈ dot_S1x128_S128x8192_S1x8192_1_0_0_1_n_n.rhsBatch by decide),
    dif_pos (show (1 : Fin S128x8192.rank) ∈ dot_S1x128_S128x8192_S1x8192_1_0_0_1_n_n.rhsNonContracting by decide)]
  rfl

/-! ## The leaves, each at an entry -/

/-- A 128 × 128 block of weights against a feature block, at (f, j): the sum over the 128 features. -/
theorem square_product {φ₁ φ₂ : FTy} (A : FVec Ideal S128x128 φ₁) (B : FVec Ideal S128x8192 φ₂) (f : Fin 128) (j : Fin 8192) :
    matmul dot_S128x128_S128x8192_S128x8192_1_0_0_1_n_n none A B (constant (F := Ideal) S128x8192 .f32 0x00000000#32) (ix2 f j)
      = ∑ k : Fin 128, A (ix2 f k) * B (ix2 k j) :=
  DotInner.matmul_zero_apply dot_S128x128_S128x8192_S128x8192_1_0_0_1_n_n rfl rfl square_l0 square_l1 square_r0 square_r1
    none A B f j

/-- The 1 × 128 row of weights against a feature block, at (0, j). -/
theorem row_product {φ₁ φ₂ : FTy} (A : FVec Ideal S1x128 φ₁) (B : FVec Ideal S128x8192 φ₂) (j : Fin 8192) :
    matmul dot_S1x128_S128x8192_S1x8192_1_0_0_1_n_n none A B (constant (F := Ideal) S1x8192 .f32 0x00000000#32) (ix2 0 j)
      = ∑ k : Fin 128, A (ix2 0 k) * B (ix2 k j) :=
  DotInner.matmul_zero_apply dot_S1x128_S128x8192_S1x8192_1_0_0_1_n_n rfl rfl row_l0 row_l1 row_r0 row_r1
    none A B 0 j

/-- A column spread along the edges, at (f, j): the column's entry in row f. -/
theorem column_spread {α : Type} (v : S128x1.Idx → α) (f : Fin 128) (j : Fin 8192) :
    broadcastTo S128x8192 v broadcasts_S128x1_S128x8192 (ix2 f j) = v (ix2 f 0) :=
  broadcastTo_apply v broadcasts_S128x1_S128x8192 (ix2 f j) (ix2 f 0) (fun a => by
    match a with
    | ⟨0, _⟩ => rfl
    | ⟨1, _⟩ => rfl)

/-- A row spread down the 128 features, at (f, j): the row's entry in column j. -/
theorem row_spread_features {α : Type} (v : S1x8192.Idx → α) (f : Fin 128) (j : Fin 8192) :
    broadcastTo S128x8192 v broadcasts_S1x8192_S128x8192 (ix2 f j) = v (ix2 0 j) :=
  broadcastTo_apply v broadcasts_S1x8192_S128x8192 (ix2 f j) (ix2 0 j) (fun a => by
    match a with
    | ⟨0, _⟩ => rfl
    | ⟨1, _⟩ => rfl)

/-- A row spread down the three coordinates, at (d, j). -/
theorem row_spread_coords {α : Type} (v : S1x8192.Idx → α) (d : Fin 3) (j : Fin 8192) :
    broadcastTo S3x8192 v broadcasts_S1x8192_S3x8192 (ix2 d j) = v (ix2 0 j) :=
  broadcastTo_apply v broadcasts_S1x8192_S3x8192 (ix2 d j) (ix2 0 j) (fun a => by
    match a with
    | ⟨0, _⟩ => rfl
    | ⟨1, _⟩ => rfl)

/-- The logistic function of a vector, at an entry. -/
theorem logistic_at {s : Shape} {φ : FTy} (x : FVec Ideal s φ) (i : s.Idx) : logistic x i = Ideal.logistic (x i) := rfl

/-! ## The two payloads -/

/-- The first layer before its activation, at unit f and column j. -/
theorem first_layer_apply (v0 v2 : Vec Ideal S128x8192 .bf16) (v4 : Vec Ideal S1x8192 .f32) (v10 v12 : Vec Ideal S128x128 .bf16)
    (v14 v16 : Vec Ideal S128x1 .f32) (f : Fin 128) (j : Fin 8192) :
    k0_pay7 (F := Ideal) v0 v2 v4 v10 v12 v14 v16 (ix2 f j)
      = ((((∑ k : Fin 128, (v10 (ix2 f k) : EReal) * v0 (ix2 k j)) + ∑ k : Fin 128, (v12 (ix2 f k) : EReal) * v2 (ix2 k j))
          + (v14 (ix2 f 0) : EReal) * v4 (ix2 0 j)) + v16 (ix2 f 0)) := by
  unfold k0_pay7
  simp only [shapeCast_self, addf_apply, mulf_apply]
  rw [square_product, square_product, column_spread, column_spread, row_spread_features]

/-- The rest of the body from the first layer's value u, at coordinate d and column j. -/
theorem rest_apply (v7 : FVec Ideal S3x8192 .f32) (v9 : FVec Ideal S1x8192 .f32) (v19 : FVec Ideal S128x128 .bf16)
    (v21 : FVec Ideal S128x1 .f32) (v23 : FVec Ideal S1x128 .bf16) (u : FVec Ideal S128x8192 .f32) (d : Fin 3) (j : Fin 8192) :
    k0_pay1 (F := Ideal) v7 v9 v19 v21 v23 u (ix2 d j)
      = v7 (ix2 d j) * (∑ g : Fin 128, v23 (ix2 0 g) *
          silu ((∑ f : Fin 128, v19 (ix2 g f) * silu (u (ix2 f j))) + v21 (ix2 g 0))) * v9 (ix2 0 j) := by
  unfold k0_pay1
  simp only [addf_apply, mulf_apply, truncf_apply]
  rw [row_spread_coords, row_spread_coords, row_product]
  congr 2
  refine Finset.sum_congr rfl fun g _ => ?_
  congr 1
  simp only [truncf_apply, mulf_apply, addf_apply, logistic_at]
  rw [square_product, column_spread]
  simp only [truncf_apply, mulf_apply, logistic_at]
  rfl

end Cert.KernelIdeal.Body

end
-- ==== Proof.KernelBlocks.lean ====
/-
  The array the kernel's one region leaves, as ONE function of the arrays the region finds.

  The region runs the body at 123 points. Point t is handed column block t (8192 columns) of each of the five arrays
  laid out along the edge axis — source features, target features, attribute row, coordinate differences, mask row — and
  the whole of each of the seven weight arrays, and writes column block t of the output. The 123 blocks tile the output's
  1 007 616 columns exactly. Column by column the body computes one message from that column of the inputs and the
  weights, so what point t writes is the restriction to its block of a single function of the whole arrays: entry
  (d, i) is difference (d, i) × the message of column i × mask i. Every column lies in the block of point ⌊i / 8192⌋, so
  the output array ends as that function.
-/
import proofs.«152924_j48275432407130_1_alg».proof.Proof.KernelPayload

set_option maxRecDepth 16384

noncomputable section

open scoped BigOperators

namespace Cert.KernelIdeal.Blocks

open Idealize.ShloMosaic Idealize.ShloMosaic.ValueIdx Idealize.ShloMosaic.TcCoe Idealize.SL.Sem
open Cert.KernelIdeal Cert.KernelIdeal.Gen Cert.EdgeLaw Cert.KernelIdeal.Body
open Idealize.ShloMosaic.Pipeline (Dat Cfg Window)

/-- The message of one column: the three pieces kept apart, the weights feature-major and on the left. -/
def columnMessage (A5 A6 : S128x128.Idx → EReal) (A7 A8 : S128x1.Idx → EReal) (A9 : S128x128.Idx → EReal)
    (A10 : S128x1.Idx → EReal) (A11 : S1x128.Idx → EReal) (src tgt : Fin 128 → EReal) (attr : EReal) : EReal :=
  ∑ g : Fin 128, A11 (ix2 0 g) * silu ((∑ f : Fin 128, A9 (ix2 g f) *
    silu (((((∑ k : Fin 128, A5 (ix2 f k) * src k) + ∑ k : Fin 128, A6 (ix2 f k) * tgt k) + A7 (ix2 f 0) * attr)
      + A8 (ix2 f 0)))) + A10 (ix2 g 0))

/-- What the region leaves: at (d, i), difference × the message of column i × mask. -/
def regionOut (A0 A1 : S128x1007616.Idx → EReal) (A2 : S1x1007616.Idx → EReal) (A3 : S3x1007616.Idx → EReal)
    (A4 : S1x1007616.Idx → EReal) (A5 A6 : S128x128.Idx → EReal) (A7 A8 : S128x1.Idx → EReal) (A9 : S128x128.Idx → EReal)
    (A10 : S128x1.Idx → EReal) (A11 : S1x128.Idx → EReal) : S3x1007616.Idx → EReal := fun i =>
  A3 i * columnMessage A5 A6 A7 A8 A9 A10 A11 (fun k => A0 (ix2 k (i 1))) (fun k => A1 (ix2 k (i 1))) (A2 (ix2 0 (i 1)))
    * A4 (ix2 0 (i 1))

/-- THE BODY'S BLOCK AT AN ENTRY: the composed payloads at (d, j) from column j of the loaded blocks. -/
theorem block_apply (x0 x1 : Vec Ideal S128x8192 .bf16) (x2 : Vec Ideal S1x8192 .f32) (x3 : Vec Ideal S3x8192 .f32)
    (x4 : Vec Ideal S1x8192 .f32) (x5 x6 : Vec Ideal S128x128 .bf16) (x7 x8 : Vec Ideal S128x1 .f32)
    (x9 : Vec Ideal S128x128 .bf16) (x10 : Vec Ideal S128x1 .f32) (x11 : Vec Ideal S1x128 .bf16)
    (y : S3x8192.Idx) (d : Fin 3) (j : Fin 8192) (hy : y = ix2 d j) :
    k0_pay1 (F := Ideal) (k0_pay2 x3) (k0_pay3 x4) (k0_pay4 x9) (k0_pay5 x10) (k0_pay6 x11) (k0_pay7 x0 x1 x2 x5 x6 x7 x8) y
      = x3 (ix2 d j) * columnMessage x5 x6 x7 x8 x9 x10 x11 (fun k => x0 (ix2 k j)) (fun k => x1 (ix2 k j)) (x2 (ix2 0 j))
        * x4 (ix2 0 j) := by
  subst hy
  rw [rest_apply]
  unfold k0_pay2 k0_pay3 k0_pay4 k0_pay5 k0_pay6
  simp only [shapeCast_self, first_layer_apply]
  rfl

variable (m : (ℓ : Loc nD τ sig) → Buf (Elt Ideal) ℓ)

theorem hz : (![0, 0] : Fin 2 → Nat) = fun _ => 0 := funext fun a => by fin_cases a <;> rfl

/-- The printed index maps over the grid: the five edge-axis windows move with the output window along the columns and
    stay on block row 0; the output's block column stays below 123. -/
theorem idx_edge : ∀ t : Fin cfg0.N,
    win0_0.index t (0 : Fin 2) = 0 ∧ win0_0.index t (1 : Fin 2) = win0_12.index t (1 : Fin 2)
    ∧ win0_1.index t (0 : Fin 2) = 0 ∧ win0_1.index t (1 : Fin 2) = win0_12.index t (1 : Fin 2)
    ∧ win0_2.index t (0 : Fin 2) = 0 ∧ win0_2.index t (1 : Fin 2) = win0_12.index t (1 : Fin 2)
    ∧ win0_3.index t (0 : Fin 2) = 0 ∧ win0_3.index t (1 : Fin 2) = win0_12.index t (1 : Fin 2)
    ∧ win0_4.index t (0 : Fin 2) = 0 ∧ win0_4.index t (1 : Fin 2) = win0_12.index t (1 : Fin 2)
    ∧ win0_12.index t (0 : Fin 2) = 0 ∧ win0_12.index t (1 : Fin 2) ≤ 122 :=
  (by decide +kernel : ∀ t : Fin grid0.N, _)

/-- The seven weight windows stay on block (0, 0). -/
theorem idx_weights : ∀ t : Fin cfg0.N,
    win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-- Every block column below 123 is some point's. -/
theorem idx_onto : ∀ q : Fin 123, ∃ t : Fin cfg0.N, win0_12.index t = ![0, q.val] :=
  (by decide +kernel : ∀ q : Fin 123, ∃ t : Fin grid0.N, win0_12.index t = ![0, q.val])

/-! ## The windows' blocks, read off the arrays -/

/-- A weight window's block is its whole array. -/
theorem weights_block_5 (c : Dev nD) (t : Fin cfg0.N) (z : S128x128.Idx) :
    iblk m c 5 t z = (V m c main_v30 : S128x128.Idx → EReal) z := by
  obtain ⟨a0, a1, -⟩ := idx_weights t
  show V m c main_v30 (((cfg0.win 5).blk t).view.emb z) = _
  refine congrArg (V m c main_v30) (funext fun a => Fin.ext ?_)
  match a with
  | ⟨0, _⟩ => show win0_5.index t (0 : Fin 2) * 128 + 1 * (z 0).val = (z 0).val; omega
  | ⟨1, _⟩ => show win0_5.index t (1 : Fin 2) * 128 + 1 * (z 1).val = (z 1).val; omega
theorem weights_block_6 (c : Dev nD) (t : Fin cfg0.N) (z : S128x128.Idx) :
    iblk m c 6 t z = (V m c main_v33 : S128x128.Idx → EReal) z := by
  obtain ⟨-, -, a0, a1, -⟩ := idx_weights t
  show V m c main_v33 (((cfg0.win 6).blk t).view.emb z) = _
  refine congrArg (V m c main_v33) (funext fun a => Fin.ext ?_)
  match a with
  | ⟨0, _⟩ => show win0_6.index t (0 : Fin 2) * 128 + 1 * (z 0).val = (z 0).val; omega
  | ⟨1, _⟩ => show win0_6.index t (1 : Fin 2) * 128 + 1 * (z 1).val = (z 1).val; omega
theorem weights_block_7 (c : Dev nD) (t : Fin cfg0.N) (z : S128x1.Idx) :
    iblk m c 7 t z = (V m c main_v35 : S128x1.Idx → EReal) z := by
  obtain ⟨-, -, -, -, a0, a1, -⟩ := idx_weights t
  show V m c main_v35 (((cfg0.win 7).blk t).view.emb z) = _
  refine congrArg (V m c main_v35) (funext fun a => Fin.ext ?_)
  match a with
  | ⟨0, _⟩ => show win0_7.index t (0 : Fin 2) * 128 + 1 * (z 0).val = (z 0).val; omega
  | ⟨1, _⟩ => show win0_7.index t (1 : Fin 2) * 1 + 1 * (z 1).val = (z 1).val; omega
theorem weights_block_8 (c : Dev nD) (t : Fin cfg0.N) (z : S128x1.Idx) :
    iblk m c 8 t z = (V m c main_v36 : S128x1.Idx → EReal) z := by
  obtain ⟨-, -, -, -, -, -, a0, a1, -⟩ := idx_weights t
  show V m c main_v36 (((cfg0.win 8).blk t).view.emb z) = _
  refine congrArg (V m c main_v36) (funext fun a => Fin.ext ?_)
  match a with
  | ⟨0, _⟩ => show win0_8.index t (0 : Fin 2) * 128 + 1 * (z 0).val = (z 0).val; omega
  | ⟨1, _⟩ => show win0_8.index t (1 : Fin 2) * 1 + 1 * (z 1).val = (z 1).val; omega
theorem weights_block_9 (c : Dev nD) (t : Fin cfg0.N) (z : S128x128.Idx) :
    iblk m c 9 t z = (V m c main_v38 : S128x128.Idx → EReal) z := by
  obtain ⟨-, -, -, -, -, -, -, -, a0, a1, -⟩ := idx_weights t
  show V m c main_v38 (((cfg0.win 9).blk t).view.emb z) = _
  refine congrArg (V m c main_v38) (funext fun a => Fin.ext ?_)
  match a with
  | ⟨0, _⟩ => show win0_9.index t (0 : Fin 2) * 128 + 1 * (z 0).val = (z 0).val; omega
  | ⟨1, _⟩ => show win0_9.index t (1 : Fin 2) * 128 + 1 * (z 1).val = (z 1).val; omega
theorem weights_block_10 (c : Dev nD) (t : Fin cfg0.N) (z : S128x1.Idx) :
    iblk m c 10 t z = (V m c main_v39 : S128x1.Idx → EReal) z := by
  obtain ⟨-, -, -, -, -, -, -, -, -, -, a0, a1, -⟩ := idx_weights t
  show V m c main_v39 (((cfg0.win 10).blk t).view.emb z) = _
  refine congrArg (V m c main_v39) (funext fun a => Fin.ext ?_)
  match a with
  | ⟨0, _⟩ => show win0_10.index t (0 : Fin 2) * 128 + 1 * (z 0).val = (z 0).val; omega
  | ⟨1, _⟩ => show win0_10.index t (1 : Fin 2) * 1 + 1 * (z 1).val = (z 1).val; omega
theorem weights_block_11 (c : Dev nD) (t : Fin cfg0.N) (z : S1x128.Idx) :
    iblk m c 11 t z = (V m c main_v41 : S1x128.Idx → EReal) z := by
  obtain ⟨-, -, -, -, -, -, -, -, -, -, -, -, a0, a1⟩ := idx_weights t
  show V m c main_v41 (((cfg0.win 11).blk t).view.emb z) = _
  refine congrArg (V m c main_v41) (funext fun a => Fin.ext ?_)
  match a with
  | ⟨0, _⟩ => show win0_11.index t (0 : Fin 2) * 1 + 1 * (z 0).val = (z 0).val; omega
  | ⟨1, _⟩ => show win0_11.index t (1 : Fin 2) * 128 + 1 * (z 1).val = (z 1).val; omega

/-- An edge-axis window's block at (r, j) is its array at row r and at the column i the output block puts j at. -/
theorem edge_block_0 (c : Dev nD) (t : Fin cfg0.N) (r : Fin 128) (j : Fin 8192) (i : Fin 1007616)
    (hi : i.val = win0_12.index t (1 : Fin 2) * 8192 + 1 * j.val) :
    iblk m c 0 t (ix2 r j) = (V m c main_v23 : S128x1007616.Idx → EReal) (ix2 r i) := by
  obtain ⟨a0, a1, -⟩ := idx_edge t
  show V m c main_v23 (((cfg0.win 0).blk t).view.emb (ix2 r j)) = _
  refine congrArg (V m c main_v23) (funext fun a => Fin.ext ?_)
  match a with
  | ⟨0, _⟩ => show win0_0.index t (0 : Fin 2) * 128 + 1 * r.val = r.val; omega
  | ⟨1, _⟩ => show win0_0.index t (1 : Fin 2) * 8192 + 1 * j.val = i.val; omega
theorem edge_block_1 (c : Dev nD) (t : Fin cfg0.N) (r : Fin 128) (j : Fin 8192) (i : Fin 1007616)
    (hi : i.val = win0_12.index t (1 : Fin 2) * 8192 + 1 * j.val) :
    iblk m c 1 t (ix2 r j) = (V m c main_v24 : S128x1007616.Idx → EReal) (ix2 r i) := by
  obtain ⟨-, -, a0, a1, -⟩ := idx_edge t
  show V m c main_v24 (((cfg0.win 1).blk t).view.emb (ix2 r j)) = _
  refine congrArg (V m c main_v24) (funext fun a => Fin.ext ?_)
  match a with
  | ⟨0, _⟩ => show win0_1.index t (0 : Fin 2) * 128 + 1 * r.val = r.val; omega
  | ⟨1, _⟩ => show win0_1.index t (1 : Fin 2) * 8192 + 1 * j.val = i.val; omega
theorem edge_block_2 (c : Dev nD) (t : Fin cfg0.N) (r : Fin 1) (j : Fin 8192) (i : Fin 1007616)
    (hi : i.val = win0_12.index t (1 : Fin 2) * 8192 + 1 * j.val) :
    iblk m c 2 t (ix2 r j) = (V m c main_v25 : S1x1007616.Idx → EReal) (ix2 r i) := by
  obtain ⟨-, -, -, -, a0, a1, -⟩ := idx_edge t
  show V m c main_v25 (((cfg0.win 2).blk t).view.emb (ix2 r j)) = _
  refine congrArg (V m c main_v25) (funext fun a => Fin.ext ?_)
  match a with
  | ⟨0, _⟩ => show win0_2.index t (0 : Fin 2) * 1 + 1 * r.val = r.val; omega
  | ⟨1, _⟩ => show win0_2.index t (1 : Fin 2) * 8192 + 1 * j.val = i.val; omega
theorem edge_block_3 (c : Dev nD) (t : Fin cfg0.N) (r : Fin 3) (j : Fin 8192) (i : Fin 1007616)
    (hi : i.val = win0_12.index t (1 : Fin 2) * 8192 + 1 * j.val) :
    iblk m c 3 t (ix2 r j) = (V m c main_v26 : S3x1007616.Idx → EReal) (ix2 r i) := by
  obtain ⟨-, -, -, -, -, -, a0, a1, -⟩ := idx_edge t
  show V m c main_v26 (((cfg0.win 3).blk t).view.emb (ix2 r j)) = _
  refine congrArg (V m c main_v26) (funext fun a => Fin.ext ?_)
  match a with
  | ⟨0, _⟩ => show win0_3.index t (0 : Fin 2) * 3 + 1 * r.val = r.val; omega
  | ⟨1, _⟩ => show win0_3.index t (1 : Fin 2) * 8192 + 1 * j.val = i.val; omega
theorem edge_block_4 (c : Dev nD) (t : Fin cfg0.N) (r : Fin 1) (j : Fin 8192) (i : Fin 1007616)
    (hi : i.val = win0_12.index t (1 : Fin 2) * 8192 + 1 * j.val) :
    iblk m c 4 t (ix2 r j) = (V m c main_v27 : S1x1007616.Idx → EReal) (ix2 r i) := by
  obtain ⟨-, -, -, -, -, -, -, -, a0, a1, -⟩ := idx_edge t
  show V m c main_v27 (((cfg0.win 4).blk t).view.emb (ix2 r j)) = _
  refine congrArg (V m c main_v27) (funext fun a => Fin.ext ?_)
  match a with
  | ⟨0, _⟩ => show win0_4.index t (0 : Fin 2) * 1 + 1 * r.val = r.val; omega
  | ⟨1, _⟩ => show win0_4.index t (1 : Fin 2) * 8192 + 1 * j.val = i.val; omega

end Cert.KernelIdeal.Blocks

end
-- ==== Proof.KernelRegion.lean ====
/-
  From the blocks to the array. What point t writes back is block t of the one function of the whole arrays
  (the body's block at an entry, with every loaded block read off its array); an index of the output lies in point t's
  block exactly when its column lies in t's range of 8192 columns; every column lies in the range of the point
  ⌊column / 8192⌋; so after the last point the output array is that function.
-/
import proofs.«152924_j48275432407130_1_alg».proof.Proof.KernelBlocks

set_option maxRecDepth 16384

noncomputable section

open scoped BigOperators

namespace Cert.KernelIdeal.Blocks

open Idealize.ShloMosaic Idealize.ShloMosaic.ValueIdx Idealize.ShloMosaic.TcCoe Idealize.SL.Sem
open Cert.KernelIdeal Cert.KernelIdeal.Gen Cert.EdgeLaw Cert.KernelIdeal.Body
open Idealize.ShloMosaic.Pipeline (Dat Cfg Window)

variable (m : (ℓ : Loc nD τ sig) → Buf (Elt Ideal) ℓ)

/-- The region's output as a function of the arrays the region finds. -/
abbrev regionArray (c : Dev nD) : S3x1007616.Idx → EReal :=
  regionOut (V m c main_v23) (V m c main_v24) (V m c main_v25) (V m c main_v26) (V m c main_v27) (V m c main_v30)
    (V m c main_v33) (V m c main_v35) (V m c main_v36) (V m c main_v38) (V m c main_v39) (V m c main_v41)

/-- One block's entry (d, j) from column j of twelve blocks: difference × the column's message × mask. -/
def blockOut (x0 x1 : S128x8192.Idx → EReal) (x2 : S1x8192.Idx → EReal) (x3 : S3x8192.Idx → EReal) (x4 : S1x8192.Idx → EReal)
    (x5 x6 : S128x128.Idx → EReal) (x7 x8 : S128x1.Idx → EReal) (x9 : S128x128.Idx → EReal) (x10 : S128x1.Idx → EReal)
    (x11 : S1x128.Idx → EReal) (d : Fin 3) (j : Fin 8192) : EReal :=
  x3 (ix2 d j) * columnMessage x5 x6 x7 x8 x9 x10 x11 (fun k => x0 (ix2 k j)) (fun k => x1 (ix2 k j)) (x2 (ix2 0 j))
    * x4 (ix2 0 j)

/-- The body's block at point t, entry y, is the array function at the index the output block puts y at. -/
theorem block_entry (c : Dev nD) (t : Fin cfg0.N) (y : S3x8192.Idx) (i : S3x1007616.Idx)
    (h0 : (i 0).val = win0_12.index t (0 : Fin 2) * 3 + 1 * (y 0).val)
    (h1 : (i 1).val = win0_12.index t (1 : Fin 2) * 8192 + 1 * (y 1).val) :
    blockOut (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (y 0) (y 1)
      = regionArray m c i := by
  unfold blockOut
  obtain ⟨-, -, -, -, -, -, -, -, -, -, r0, -⟩ := idx_edge t
  have hi : i = ix2 (y 0) (i 1) := funext fun a => Fin.ext (by
    match a with
    | ⟨0, _⟩ => show (i 0).val = (y 0).val; omega
    | ⟨1, _⟩ => rfl)
  have e3 : iblk m c 3 t (ix2 (y 0) (y 1)) = (V m c main_v26 : S3x1007616.Idx → EReal) i :=
    (edge_block_3 m c t (y 0) (y 1) (i 1) h1).trans (congrArg (V m c main_v26 : S3x1007616.Idx → EReal) hi.symm)
  have e0 : (fun k : Fin 128 => (iblk m c 0 t (ix2 k (y 1)) : EReal)) = fun k => (V m c main_v23 : S128x1007616.Idx → EReal) (ix2 k (i 1)) :=
    funext fun k => edge_block_0 m c t k (y 1) (i 1) h1
  have e1 : (fun k : Fin 128 => (iblk m c 1 t (ix2 k (y 1)) : EReal)) = fun k => (V m c main_v24 : S128x1007616.Idx → EReal) (ix2 k (i 1)) :=
    funext fun k => edge_block_1 m c t k (y 1) (i 1) h1
  have e2 := edge_block_2 m c t 0 (y 1) (i 1) h1
  have e4 := edge_block_4 m c t 0 (y 1) (i 1) h1
  have w5 : (iblk m c 5 t : S128x128.Idx → EReal) = V m c main_v30 := funext fun z => weights_block_5 m c t z
  have w6 : (iblk m c 6 t : S128x128.Idx → EReal) = V m c main_v33 := funext fun z => weights_block_6 m c t z
  have w7 : (iblk m c 7 t : S128x1.Idx → EReal) = V m c main_v35 := funext fun z => weights_block_7 m c t z
  have w8 : (iblk m c 8 t : S128x1.Idx → EReal) = V m c main_v36 := funext fun z => weights_block_8 m c t z
  have w9 : (iblk m c 9 t : S128x128.Idx → EReal) = V m c main_v38 := funext fun z => weights_block_9 m c t z
  have w10 : (iblk m c 10 t : S128x1.Idx → EReal) = V m c main_v39 := funext fun z => weights_block_10 m c t z
  have w11 : (iblk m c 11 t : S1x128.Idx → EReal) = V m c main_v41 := funext fun z => weights_block_11 m c t z
  rw [e3, e0, e1, e2, e4, w5, w6, w7, w8, w9, w10, w11]
  rfl

/-- WHAT POINT t WRITES BACK is block t of the array function. -/
theorem flushed_eq (c : Dev nD) (t : Fin cfg0.N) :
    (dats m 0 c).flushed 12 t = ((cfg0.win 12).blk t).view.read (Elt Ideal) (regionArray m c) := by
  show (cfg0.win 12).cut (grid0.coords t) ((dats m 0 c).after 12 t) = _
  rw [after0_12]
  unfold out0_12
  rw [View.canon_unit_zero hz]
  simp only [View.ld_unit_zero (S := S128x8192) hz, View.ld_unit_zero (S := S1x8192) hz, View.ld_unit_zero (S := S3x8192) hz,
    View.ld_unit_zero (S := S128x128) hz, View.ld_unit_zero (S := S128x1) hz, View.ld_unit_zero (S := S1x128) hz]
  funext y
  refine (block_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) y (y 0) (y 1) (eq_ix2 y)).trans ?_
  exact block_entry m c t y (((cfg0.win 12).blk t).view.emb y) rfl rfl

/-- An index of the output array is in point t's block iff each coordinate is in the block's range on its axis. -/
theorem mem_blk (t : Fin cfg0.N) (i : S3x1007616.Idx) :
    i ∈ ((cfg0.win 12).blk t).view.set ↔ ∀ a : Fin 2, win0_12.index t a * S3x8192.size a ≤ (i a).val
      ∧ (i a).val < win0_12.index t a * S3x8192.size a + S3x8192.size a := by
  show i ∈ ((View.whole main_v42).slice (win0_12.rect t)).set ↔ _
  rw [View.set_slice_whole, Rect.mem_set_unit]
  exact Iff.rfl

/-- Every index of the output array is in some point's block: the point of its column's block of 8192. -/
theorem covered (i : S3x1007616.Idx) :
    ∃ t : Fin cfg0.N, (cfg0.win 12).flush t = true ∧ i ∈ ((cfg0.win 12).blk t).view.set := by
  have hi0 : (i 0).val < 3 := (i 0).isLt
  have hi1 : (i 1).val < 1007616 := (i 1).isLt
  obtain ⟨t, ht⟩ := idx_onto ⟨(i 1).val / 8192, by omega⟩
  have q0 : win0_12.index t (0 : Fin 2) = 0 := congrFun ht 0
  have q1 : win0_12.index t (1 : Fin 2) = (i 1).val / 8192 := congrFun ht 1
  refine ⟨t, flush0_12 t, ?_⟩
  rw [mem_blk]
  intro a
  match a with
  | ⟨0, _⟩ => show win0_12.index t (0 : Fin 2) * 3 ≤ (i 0).val ∧ (i 0).val < win0_12.index t (0 : Fin 2) * 3 + 3; omega
  | ⟨1, _⟩ => show win0_12.index t (1 : Fin 2) * 8192 ≤ (i 1).val ∧ (i 1).val < win0_12.index t (1 : Fin 2) * 8192 + 8192; omega

/-- THE OUTPUT ARRAY after the region. -/
theorem final (c : Dev nD) : (dats m 0 c).arrAt 12 cfg0.N = regionArray m c :=
  (dats m 0 c).arrAt_eq_of_cover 12 (regionArray m c) (fun t _ => flushed_eq m c t) covered

end Cert.KernelIdeal.Blocks

end
-- ==== Proof.PrefixWeights.lean ====
/-
  The seven weight arrays as the region finds them. Before the region the program cuts the first weight matrix
  [257, 128] into its rows 0–127, 128–255 and 256, transposes each piece (and the second and third matrices) so that the
  output unit comes first, and stands each bias vector up as a column. Read at an entry:
  piece a at (f, k) is the matrix at (k, f); piece b at (f, k) is the matrix at (128 + k, f); the column at (f, 0) is the
  matrix at (256, f); the bias columns at (f, 0) are the biases at f; the second matrix transposed at (g, f) is the matrix
  at (f, g); the third as a row at (0, g) is the matrix at (g, 0). Changes of float format are the identity.
-/
import proofs.«152924_j48275432407130_1_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.Prefix

open Idealize.ShloMosaic Idealize.ShloMosaic.ValueIdx Idealize.ShloMosaic.TcCoe Idealize.SL.Sem Idealize.ShloMosaic.StableHlo
open Cert.KernelIdeal Cert.KernelIdeal.Gen

/-- Opens the region-entry contents of one buffer into the host operations that wrote it. -/
macro "region_entry" : tactic =>
  `(tactic| (dsimp only [Gen.V, Gen.V0]
             simp only [Gen.hostOps0, Gen.hostOps0_1, Gen.hostOps0_2, Gen.hostOps0_3, Gen.hostOps0_4, Gen.hostOps0_5,
               Gen.hostOps0_6, Gen.hostOps0_7, Gen.hostOps0_8, Gen.hostOps0_9, Gen.hostOps0_10, List.flatten_cons,
               List.flatten_nil, List.append_nil, List.cons_append, List.nil_append]
             after_results_simp))

variable (m : (ℓ : Loc nD τ sig) → Buf (Elt Ideal) ℓ)

/-- Rows 0–127 of the first matrix, transposed. -/
theorem first_a (c : Dev nD) (f k : Fin 128) :
    (V m c main_v30 : S128x128.Idx → EReal) (ix2 f k) = m ((c.tc : Thread nD τ).loc main_arg7) (ix2 ⟨k.val, by omega⟩ f) := by
  region_entry
  rw [truncf_apply]
  refine (transpose_apply [1, 0] _ transposes_S128x128_S128x128_1_0 (ix2 f k) (ix2 k f) (fun b => by
    match b with
    | ⟨0, _⟩ => rfl
    | ⟨1, _⟩ => rfl)).trans ?_
  exact extractStridedSlice_apply ![0, 0] _ slices_S257x128_S128x128_0_0 (ix2 k f) (ix2 ⟨k.val, by omega⟩ f) (fun a => by
    match a with
    | ⟨0, _⟩ => show k.val = 0 + k.val; omega
    | ⟨1, _⟩ => show f.val = 0 + f.val; omega)

/-- Rows 128–255 of the first matrix, transposed. -/
theorem first_b (c : Dev nD) (f k : Fin 128) :
    (V m c main_v33 : S128x128.Idx → EReal) (ix2 f k) = m ((c.tc : Thread nD τ).loc main_arg7) (ix2 ⟨128 + k.val, by omega⟩ f) := by
  region_entry
  rw [truncf_apply]
  refine (transpose_apply [1, 0] _ transposes_S128x128_S128x128_1_0 (ix2 f k) (ix2 k f) (fun b => by
    match b with
    | ⟨0, _⟩ => rfl
    | ⟨1, _⟩ => rfl)).trans ?_
  exact extractStridedSlice_apply ![128, 0] _ slices_S257x128_S128x128_128_0 (ix2 k f) (ix2 ⟨128 + k.val, by omega⟩ f) (fun a => by
    match a with
    | ⟨0, _⟩ => show 128 + k.val = 128 + k.val; rfl
    | ⟨1, _⟩ => show f.val = 0 + f.val; omega)

/-- Row 256 of the first matrix, as a column. -/
theorem first_c (c : Dev nD) (f : Fin 128) :
    (V m c main_v35 : S128x1.Idx → EReal) (ix2 f 0) = m ((c.tc : Thread nD τ).loc main_arg7) (ix2 ⟨256, by omega⟩ f) := by
  region_entry
  refine (transpose_apply [1, 0] _ transposes_S1x128_S128x1_1_0 (ix2 f 0) (ix2 0 f) (fun b => by
    match b with
    | ⟨0, _⟩ => rfl
    | ⟨1, _⟩ => rfl)).trans ?_
  exact extractStridedSlice_apply ![256, 0] _ slices_S257x128_S1x128_256_0 (ix2 0 f) (ix2 ⟨256, by omega⟩ f) (fun a => by
    match a with
    | ⟨0, _⟩ => show 256 = 256 + 0; rfl
    | ⟨1, _⟩ => show f.val = 0 + f.val; omega)

/-- The first bias as a column. -/
theorem first_bias (c : Dev nD) (f : Fin 128) :
    (V m c main_v36 : S128x1.Idx → EReal) (ix2 f 0) = m ((c.tc : Thread nD τ).loc main_arg8) (ix1 f) := by
  region_entry
  exact shapeCast_apply _ shapeCasts_S128_S128x1 (ix2 f 0) (ix1 f) (by
    rw [Shape.rowMajor_val_one, Shape.rowMajor_val_two]
    show f.val = f.val * 1 + 0; omega)

/-- The second matrix, transposed. -/
theorem second (c : Dev nD) (g f : Fin 128) :
    (V m c main_v38 : S128x128.Idx → EReal) (ix2 g f) = m ((c.tc : Thread nD τ).loc main_arg9) (ix2 f g) := by
  region_entry
  rw [truncf_apply]
  exact transpose_apply [1, 0] _ transposes_S128x128_S128x128_1_0 (ix2 g f) (ix2 f g) (fun b => by
    match b with
    | ⟨0, _⟩ => rfl
    | ⟨1, _⟩ => rfl)

/-- The second bias as a column. -/
theorem second_bias (c : Dev nD) (g : Fin 128) :
    (V m c main_v39 : S128x1.Idx → EReal) (ix2 g 0) = m ((c.tc : Thread nD τ).loc main_arg10) (ix1 g) := by
  region_entry
  exact shapeCast_apply _ shapeCasts_S128_S128x1 (ix2 g 0) (ix1 g) (by
    rw [Shape.rowMajor_val_one, Shape.rowMajor_val_two]
    show g.val = g.val * 1 + 0; omega)

/-- The third matrix as a row. -/
theorem third (c : Dev nD) (g : Fin 128) :
    (V m c main_v41 : S1x128.Idx → EReal) (ix2 0 g) = m ((c.tc : Thread nD τ).loc main_arg11) (ix2 g 0) := by
  region_entry
  rw [truncf_apply]
  exact transpose_apply [1, 0] _ transposes_S128x1_S1x128_1_0 (ix2 0 g) (ix2 g 0) (fun b => by
    match b with
    | ⟨0, _⟩ => rfl
    | ⟨1, _⟩ => rfl)

end Cert.KernelIdeal.Prefix

end
-- ==== Proof.LibGatherColumns.lean ====
/-
  A gather of whole COLUMNS read at an index.

  For a table of shape [D, N] and one integer per result column, x[:, idx] has at (c, e) the table's entry in row c and in
  the column idx[e], that integer read signed and clamped into [0, N − 1] as a gather clamps every start index. It is the
  transpose of the gather of whole rows of the transposed table, and the clamp is the same expression, so a program that
  gathers columns of a transposed table and one that gathers rows of the table itself read the same entries.
-/
import Idealize.ShloMosaic.Lib.ValueIdx

noncomputable section

namespace Idealize.ShloMosaic.GatherColumns

open Idealize.ShloMosaic Idealize.ShloMosaic.ValueIdx

variable {α : Type}

/-- The dimension numbers of a column gather x[:, idx] of a table [D, N] at start indices [E, 1], result [D, E]:
offset axis 0, collapsed axis 1, start index map [1], index vector axis 1, slice sizes [D, 1]. -/
abbrev colsDims (D N E : Nat)
    (wf : GatherDims.WF ⟨2, ![D, N]⟩ ⟨2, ![E, 1]⟩ ⟨2, ![D, E]⟩ [0] [1] [] [1] [] 1 ![D, 1]) :
    GatherDims ⟨2, ![D, N]⟩ ⟨2, ![E, 1]⟩ ⟨2, ![D, E]⟩ where
  offsetDims := [0]
  collapsedSliceDims := [1]
  operandBatchingDims := []
  startIndicesBatchingDims := []
  startIndexMap := [1]
  indexVectorDim := 1
  sliceSizes := ![D, 1]
  wf := wf

/-- A column gather read at (c, e): the table at row c and at column idx[e, 0], read signed and clamped into [0, N − 1]. -/
theorem gather_colsDims_apply {D N E w : Nat} (hN : 0 < N)
    (wf : GatherDims.WF ⟨2, ![D, N]⟩ ⟨2, ![E, 1]⟩ ⟨2, ![D, E]⟩ [0] [1] [] [1] [] 1 ![D, 1])
    (x : (⟨2, ![D, N]⟩ : Shape).Idx → α) (idx : IVec ⟨2, ![E, 1]⟩ w) (c : Fin D) (e : Fin E) :
    Host.gather (colsDims D N E wf) x idx (ix2 c e)
      = x (ix2 c ⟨min (idx (ix2 e 0)).toInt.toNat (N - 1), by omega⟩) := by
  unfold Host.gather
  congr 1
  funext a
  refine Fin.ext ?_
  match a with
  | ⟨0, _⟩ =>
    -- the row: no start index on this axis, the result's offset coordinate
    show (colsDims D N E wf).start (ix2 c e) idx 0 + (colsDims D N E wf).batchCoord (ix2 c e) 0
      + (colsDims D N E wf).offCoord (ix2 c e) 0 = c.val
    rw [GatherDims.batchCoord_eq_zero _ _ _ List.not_mem_nil]
    have hs : (colsDims D N E wf).start (ix2 c e) idx 0 = 0 := by
      unfold GatherDims.start
      rw [dif_neg (show (0 : Fin 2) ∉ (colsDims D N E wf).startIndexMap from (by decide : (0 : Fin 2) ∉ ([1] : List (Fin 2))))]
    rw [hs]
    simp only [Nat.add_zero, Nat.zero_add]
    unfold GatherDims.offCoord
    rw [dif_pos ((GatherDims.mem_sKept _ _).mpr ⟨(by decide : (0 : Fin 2) ∉ ([1] : List (Fin 2))), List.not_mem_nil⟩)]
    rfl
  | ⟨1, _⟩ =>
    -- the column: the clamped start index, no offset on a collapsed axis
    show (colsDims D N E wf).start (ix2 c e) idx 1 + (colsDims D N E wf).batchCoord (ix2 c e) 1
      + (colsDims D N E wf).offCoord (ix2 c e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims D N E wf).startIndexMap from List.mem_singleton.mpr rfl)]
    have hsi : (colsDims D N E wf).siIdx (ix2 c e) ⟨List.idxOf (1 : Fin 2) (colsDims D N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-- GATHER OF COLUMNS READ AT AN INDEX, for any record with the column gather's dimension numbers. -/
theorem gather_cols_apply {D N E w : Nat} (hN : 0 < N)
    (g : GatherDims ⟨2, ![D, N]⟩ ⟨2, ![E, 1]⟩ ⟨2, ![D, E]⟩)
    (ho : g.offsetDims = [0]) (hc : g.collapsedSliceDims = [1]) (hob : g.operandBatchingDims = [])
    (hsb : g.startIndicesBatchingDims = []) (hm : g.startIndexMap = [1]) (hv : g.indexVectorDim = 1)
    (hss : g.sliceSizes = ![D, 1])
    (x : (⟨2, ![D, N]⟩ : Shape).Idx → α) (idx : IVec ⟨2, ![E, 1]⟩ w) (c : Fin D) (e : Fin E) :
    Host.gather g x idx (ix2 c e)
      = x (ix2 c ⟨min (idx (ix2 e 0)).toInt.toNat (N - 1), by omega⟩) := by
  obtain ⟨od, cd, ob, sb, sm, iv, ss, wf⟩ := g
  dsimp only at ho hc hob hsb hm hv hss
  subst ho hc hob hsb hm hv hss
  exact gather_colsDims_apply hN wf x idx c e

end Idealize.ShloMosaic.GatherColumns

end
-- ==== Proof.PrefixEdges.lean ====
/-
  The five edge-axis arrays as the region finds them. Before the region the program lays the per-edge data out with the
  edge axis last and pads that axis from 1 000 000 to 1 007 616 columns: the node-feature table transposed and gathered
  column-wise at the two start-index arrays; the attributes, the coordinate differences and the mask transposed. At a
  column i below 1 000 000 — the column of edge e with i = e — the padding is not met, and the entry is: feature k of the
  node that entry e of the start-index array names; edge e's attribute; coordinate d of edge e's difference; edge e's
  mask. The node is the start index read signed and clamped into [0, 49999], as a gather clamps it.
-/
import proofs.«152924_j48275432407130_1_alg».proof.Proof.PrefixWeights
import proofs.«152924_j48275432407130_1_alg».proof.Proof.TransSpec
import proofs.«152924_j48275432407130_1_alg».proof.Proof.LibGatherColumns
import Idealize.ShloMosaic.Lib.KernelVsHost

set_option maxRecDepth 16384

noncomputable section

namespace Cert.KernelIdeal.Prefix

open Idealize.ShloMosaic Idealize.ShloMosaic.ValueIdx Idealize.ShloMosaic.TcCoe Idealize.SL.Sem Idealize.ShloMosaic.StableHlo
open Cert.KernelIdeal Cert.KernelIdeal.Gen Cert.TransSpec

variable (m : (ℓ : Loc nD τ sig) → Buf (Elt Ideal) ℓ)

/-- The columns gathered at a start-index array, from the transposed table, at (k, e): feature k of the node entry e names. -/
theorem gathered_columns (h : (⟨S50000x128, .f32⟩ : BufTy).Contents (Elt Ideal)) (S : (⟨S1000000x1, .i32⟩ : BufTy).Contents (Elt Ideal))
    (k : Fin 128) (e : Fin 1000000) :
    Host.gather gather_S128x50000_S1000000x1_S128x1000000_0_1_n_n_1_1_1281
        (truncf .bf16 (transpose S128x50000 [1, 0] h transposes_S50000x128_S128x50000_1_0) bitsLt_bf16_f32 :
          FVec Ideal S128x50000 .bf16) S (ix2 k e)
      = feats h S e k := by
  refine (GatherColumns.gather_cols_apply (by decide) gather_S128x50000_S1000000x1_S128x1000000_0_1_n_n_1_1_1281
    rfl rfl rfl rfl rfl rfl rfl _ S k e).trans ?_
  rw [truncf_apply]
  exact transpose_apply [1, 0] h transposes_S50000x128_S128x50000_1_0 _ (ix2 (node (S (ix2 e 0))) k) (fun b => by
    match b with
    | ⟨0, _⟩ => rfl
    | ⟨1, _⟩ => rfl)

/-- The padded source-feature array at (k, i), i the column of edge e. -/
theorem source_columns (c : Dev nD) (k : Fin 128) (e : Fin 1000000) (i : Fin 1007616) (hi : i.val = e.val) :
    (V m c main_v23 : S128x1007616.Idx → EReal) (ix2 k i)
      = feats (m ((c.tc : Thread nD τ).loc main_arg0)) (V m c main_v11 : S1000000x1.Idx → BitVec 32) e k := by
  rw [← gathered_columns]
  region_entry
  simp only [TRef.toBuf, TRef.ofBuf, cast_eq]
  exact pad_apply_of_inside ![0, 0] ![0, 7616] ![0, 0] _ _ pads_S128x1000000_S128x1007616_000_076160 h_S_ (ix2 k i) (ix2 k e)
    (fun a => by
      match a with
      | ⟨0, _⟩ => show k.val = 0 + k.val * (0 + 1); omega
      | ⟨1, _⟩ => show i.val = 0 + e.val * (0 + 1); omega)

/-- The padded target-feature array at (k, i). -/
theorem target_columns (c : Dev nD) (k : Fin 128) (e : Fin 1000000) (i : Fin 1007616) (hi : i.val = e.val) :
    (V m c main_v24 : S128x1007616.Idx → EReal) (ix2 k i)
      = feats (m ((c.tc : Thread nD τ).loc main_arg0)) (V m c main_v18 : S1000000x1.Idx → BitVec 32) e k := by
  rw [← gathered_columns]
  region_entry
  simp only [TRef.toBuf, TRef.ofBuf, cast_eq]
  exact pad_apply_of_inside ![0, 0] ![0, 7616] ![0, 0] _ _ pads_S128x1000000_S128x1007616_000_076160 h_S_ (ix2 k i) (ix2 k e)
    (fun a => by
      match a with
      | ⟨0, _⟩ => show k.val = 0 + k.val * (0 + 1); omega
      | ⟨1, _⟩ => show i.val = 0 + e.val * (0 + 1); omega)

/-- The padded attribute row at (0, i). -/
theorem attr_row (c : Dev nD) (e : Fin 1000000) (i : Fin 1007616) (hi : i.val = e.val) :
    (V m c main_v25 : S1x1007616.Idx → EReal) (ix2 0 i) = m ((c.tc : Thread nD τ).loc main_arg4) (ix2 e 0) := by
  region_entry
  simp only [TRef.toBuf, TRef.ofBuf, cast_eq]
  refine (pad_apply_of_inside ![0, 0] ![0, 7616] ![0, 0] _ _ pads_S1x1000000_S1x1007616_000_076160 h_S_ (ix2 0 i) (ix2 0 e)
    (fun a => by
      match a with
      | ⟨0, _⟩ => show 0 = 0 + 0 * (0 + 1); rfl
      | ⟨1, _⟩ => show i.val = 0 + e.val * (0 + 1); omega)).trans ?_
  exact transpose_apply [1, 0] _ transposes_S1000000x1_S1x1000000_1_0 (ix2 0 e) (ix2 e 0) (fun b => by
    match b with
    | ⟨0, _⟩ => rfl
    | ⟨1, _⟩ => rfl)

/-- The padded coordinate differences at (d, i). -/
theorem diff_rows (c : Dev nD) (d : Fin 3) (e : Fin 1000000) (i : Fin 1007616) (hi : i.val = e.val) :
    (V m c main_v26 : S3x1007616.Idx → EReal) (ix2 d i) = m ((c.tc : Thread nD τ).loc main_arg3) (ix2 e d) := by
  region_entry
  simp only [TRef.toBuf, TRef.ofBuf, cast_eq]
  refine (pad_apply_of_inside ![0, 0] ![0, 7616] ![0, 0] _ _ pads_S3x1000000_S3x1007616_000_076160 h_S_ (ix2 d i) (ix2 d e)
    (fun a => by
      match a with
      | ⟨0, _⟩ => show d.val = 0 + d.val * (0 + 1); omega
      | ⟨1, _⟩ => show i.val = 0 + e.val * (0 + 1); omega)).trans ?_
  exact transpose_apply [1, 0] _ transposes_S1000000x3_S3x1000000_1_0 (ix2 d e) (ix2 e d) (fun b => by
    match b with
    | ⟨0, _⟩ => rfl
    | ⟨1, _⟩ => rfl)

/-- The padded mask row at (0, i). -/
theorem mask_row (c : Dev nD) (e : Fin 1000000) (i : Fin 1007616) (hi : i.val = e.val) :
    (V m c main_v27 : S1x1007616.Idx → EReal) (ix2 0 i) = m ((c.tc : Thread nD τ).loc main_arg6) (ix2 e 0) := by
  region_entry
  simp only [TRef.toBuf, TRef.ofBuf, cast_eq]
  refine (pad_apply_of_inside ![0, 0] ![0, 7616] ![0, 0] _ _ pads_S1x1000000_S1x1007616_000_076160 h_S_ (ix2 0 i) (ix2 0 e)
    (fun a => by
      match a with
      | ⟨0, _⟩ => show 0 = 0 + 0 * (0 + 1); rfl
      | ⟨1, _⟩ => show i.val = 0 + e.val * (0 + 1); omega)).trans ?_
  exact transpose_apply [1, 0] _ transposes_S1000000x1_S1x1000000_1_0 (ix2 0 e) (ix2 e 0) (fun b => by
    match b with
    | ⟨0, _⟩ => rfl
    | ⟨1, _⟩ => rfl)

end Cert.KernelIdeal.Prefix

end
-- ==== Proof.Tail.lean ====
/-
  What both programs do with the per-edge contributions, once they have them: sum the contributions of the edges that
  name each node (starting from zero, the node named by the edge's entry in the row-index vector), divide by 100, add the
  node's coordinates, and multiply by the node's mask spread over the three coordinates. It is one function of the
  per-edge array, the row-index vector, the coordinates and the mask, and it is never opened: both programs apply it, so
  equal per-edge arrays give equal results.

  The reference's last stage is this function of its per-edge array and of its row-index vector, by unfolding alone.
-/
import proofs.«152924_j48275432407130_1_alg».proof.Proof.Gen.KernelIdeal
import proofs.«152924_j48275432407130_1_alg».proof.Proof.Gen.ReferenceIdeal.Read
import Idealize.ShloMosaic.PureOps.Ideal

noncomputable section

namespace Cert.Tail

open Idealize.ShloMosaic

section Shared
open Cert.KernelIdeal Cert.KernelIdeal.Facts₀

/-- Per-node sums of the per-edge contributions, over 100, plus the coordinates, times the node mask. -/
def tail (tr : (⟨S1000000x3, .f32⟩ : BufTy).Contents (Elt Ideal)) (rows : (⟨S1000000, .i32⟩ : BufTy).Contents (Elt Ideal))
    (x1 : (⟨S50000x3, .f32⟩ : BufTy).Contents (Elt Ideal)) (x5 : (⟨S50000x1, .f32⟩ : BufTy).Contents (Elt Ideal)) :
    (⟨S50000x3, .f32⟩ : BufTy).Contents (Elt Ideal) :=
  mulf (addf x1 (Host.divf
      (Host.scatterAdd scatter_S50000x3_S1000000x1_S1000000x3_1_0_0_1
        (broadcastInDim S50000x3 ![] bcast_S_S50000x3 (constant (F := Ideal) S_ .f32 0x00000000#32))
        (broadcastInDim S1000000x1 ![0] bcast_S1000000_S1000000x1_0 rows) tr)
      (broadcastInDim S50000x3 ![] bcast_S_S50000x3 (constant (F := Ideal) S_ .f32 0x42C80000#32))))
    (broadcastInDim S50000x3 ![0, 1] bcast_S50000x1_S50000x3_0_1 x5)

end Shared

section Reference
open Cert.ReferenceIdeal Cert.ReferenceIdeal.Read

/-- The reference's result is the shared tail of its per-edge array. -/
theorem reference_result (x0 : (⟨S50000x128, .f32⟩ : BufTy).Contents (Elt Ideal)) (x1 : (⟨S50000x3, .f32⟩ : BufTy).Contents (Elt Ideal))
    (x2 : (⟨S2x1000000, .i32⟩ : BufTy).Contents (Elt Ideal)) (x3 : (⟨S1000000x3, .f32⟩ : BufTy).Contents (Elt Ideal))
    (x4 : (⟨S1000000x1, .f32⟩ : BufTy).Contents (Elt Ideal)) (x5 : (⟨S50000x1, .f32⟩ : BufTy).Contents (Elt Ideal))
    (x6 : (⟨S1000000x1, .f32⟩ : BufTy).Contents (Elt Ideal)) (x7 : (⟨S257x128, .f32⟩ : BufTy).Contents (Elt Ideal))
    (x8 : (⟨S128, .f32⟩ : BufTy).Contents (Elt Ideal)) (x9 : (⟨S128x128, .f32⟩ : BufTy).Contents (Elt Ideal))
    (x10 : (⟨S128, .f32⟩ : BufTy).Contents (Elt Ideal)) (x11 : (⟨S128x1, .f32⟩ : BufTy).Contents (Elt Ideal)) :
    val_main_v41 (F := Ideal) x0 x1 x2 x3 x4 x5 x6 x7 x8 x9 x10 x11
      = tail (val_main_v33 (F := Ideal) x0 x2 x3 x4 x6 x7 x8 x9 x10 x11) (val_main_v1 (F := Ideal) x2) x1 x5 := by
  unfold val_main_v41 val_main_v39 val_main_v38 val_main_v36 val_main_v40 val_main_v37 val_main_v35 val_main_v34
    val_main_cst val_main_cst_3 tail
  rfl

end Reference

end Cert.Tail

end
-- ==== Proof.KernelTail.lean ====
/-
  The kernel program's result. After the region the program drops the padding columns of the region's output, transposes
  it back to one row per edge, and applies the shared tail to it with the row-index vector it computed before the region,
  the coordinates and the node mask. The region's output array is what the blocks left; the other three buffers are
  untouched by the region and by the lines after it.
-/
import proofs.«152924_j48275432407130_1_alg».proof.Proof.Gen.KernelIdeal.Frame
import proofs.«152924_j48275432407130_1_alg».proof.Proof.Tail
import Idealize.ShloMosaic.Lib.StableHlo.Run

set_option maxRecDepth 16384

noncomputable section

namespace Cert.KernelIdeal.HostTail

open Idealize.ShloMosaic Idealize.ShloMosaic.TcCoe Idealize.SL.Sem Idealize.ShloMosaic.StableHlo
open Cert.KernelIdeal Cert.KernelIdeal.Gen Cert.Tail

variable (m : (ℓ : Loc nD τ sig) → Buf (Elt Ideal) ℓ)

/-- The per-edge array the kernel program hands to the tail: the region's output without its padding, one row per edge. -/
def perEdge (A : (⟨S3x1007616, .f32⟩ : BufTy).Contents (Elt Ideal)) : (⟨S1000000x3, .f32⟩ : BufTy).Contents (Elt Ideal) :=
  transpose S1000000x3 [1, 0] (extractStridedSlice S3x1000000 ![0, 0] A slices_S3x1007616_S3x1000000_0_0)
    transposes_S3x1000000_S1000000x3_1_0

/-- THE KERNEL PROGRAM'S RESULT: the shared tail of the region's output array, re-laid. -/
theorem result_eq (c : Dev nD) :
    Pipeline.afterTail₀ cfgs (dats m) 0 (V0 m) [hostOps1] c main_v52
      = tail (perEdge ((dats m 0 c).arrAt 12 cfg0.N)) (V m c main_v1) (m ((c.tc : Thread nD τ).loc main_arg1))
          (m ((c.tc : Thread nD τ).loc main_arg5)) := by
  have hA : Pipeline.withArrays (cfgs 0).spec c (V0 m c) (fun w => (dats m 0 c).arrAt w (cfgs 0).N) (Proc.devRef .tc main_v42)
      = (dats m 0 c).arrAt 12 cfg0.N :=
    Pipeline.withArrays_arr spec0 launch0.win.arr_inj c (V0 m c) (fun w => (dats m 0 c).arrAt w cfg0.N) 12
  have hR : Pipeline.withArrays (cfgs 0).spec c (V0 m c) (fun w => (dats m 0 c).arrAt w (cfgs 0).N) (Proc.devRef .tc main_v1)
      = V m c main_v1 :=
    Pipeline.withArrays_of_ne _ c (V0 m c) _ main_v1 (by exact (by decide : ∀ w, Pipeline.arrRef spec0 w ≠ main_v1))
  have h1 : Pipeline.withArrays (cfgs 0).spec c (V0 m c) (fun w => (dats m 0 c).arrAt w (cfgs 0).N) (Proc.devRef .tc main_arg1)
      = m ((c.tc : Thread nD τ).loc main_arg1) :=
    (Pipeline.withArrays_of_ne _ c (V0 m c) _ main_arg1 (by exact (by decide : ∀ w, Pipeline.arrRef spec0 w ≠ main_arg1))).trans
      (V_main_arg1 m c)
  have h5 : Pipeline.withArrays (cfgs 0).spec c (V0 m c) (fun w => (dats m 0 c).arrAt w (cfgs 0).N) (Proc.devRef .tc main_arg5)
      = m ((c.tc : Thread nD τ).loc main_arg5) :=
    (Pipeline.withArrays_of_ne _ c (V0 m c) _ main_arg5 (by exact (by decide : ∀ w, Pipeline.arrRef spec0 w ≠ main_arg5))).trans
      (V_main_arg5 m c)
  unfold Pipeline.afterTail₀
  show StableHlo.after hostOps1 _ (Proc.devRef .tc main_v52) = _
  simp only [Gen.hostOps1]
  after_results_simp
  rw [hA, hR, h1, h5]
  rfl

end Cert.KernelIdeal.HostTail

end
-- ==== Proof.KernelTrans.lean ====
/-
  The kernel program's per-edge array is the specification's.

  The region's output at row d and column i, for i the column of an edge e, is difference × message × mask with every
  factor read from the arrays the region finds; those arrays, read at that column, are edge e's data and the weights
  re-laid, so the message is the network's message for edge e in the arrangement that keeps the three first-layer pieces
  apart — the same extended real as with the inputs stacked. Dropping the padding columns and transposing puts that value
  at row e, column d: the per-edge array the tail receives is the specification's contribution of every edge.
-/
import proofs.«152924_j48275432407130_1_alg».proof.Proof.KernelRegion
import proofs.«152924_j48275432407130_1_alg».proof.Proof.PrefixEdges
import proofs.«152924_j48275432407130_1_alg».proof.Proof.KernelTail

set_option maxRecDepth 16384

noncomputable section

open scoped BigOperators

namespace Cert.KernelIdeal.PerEdge

open Idealize.ShloMosaic Idealize.ShloMosaic.ValueIdx Idealize.ShloMosaic.TcCoe Idealize.SL.Sem
open Cert.KernelIdeal Cert.KernelIdeal.Gen Cert.EdgeLaw Cert.TransSpec Cert.KernelIdeal.Blocks Cert.KernelIdeal.Prefix
open Cert.KernelIdeal.HostTail

/-- The feature-major message with the weights re-laid is the message with the inputs stacked. -/
theorem columnMessage_eq (A5 A6 : S128x128.Idx → EReal) (A7 A8 : S128x1.Idx → EReal) (A9 : S128x128.Idx → EReal)
    (A10 : S128x1.Idx → EReal) (A11 : S1x128.Idx → EReal)
    (W1 : S257x128.Idx → EReal) (b1 : S128.Idx → EReal) (W2 : S128x128.Idx → EReal) (b2 : S128.Idx → EReal)
    (W3 : S128x1.Idx → EReal)
    (h5 : ∀ f k : Fin 128, A5 (ix2 f k) = W1 (ix2 ⟨k.val, by omega⟩ f))
    (h6 : ∀ f k : Fin 128, A6 (ix2 f k) = W1 (ix2 ⟨128 + k.val, by omega⟩ f))
    (h7 : ∀ f : Fin 128, A7 (ix2 f 0) = W1 (ix2 ⟨256, by omega⟩ f)) (h8 : ∀ f : Fin 128, A8 (ix2 f 0) = b1 (ix1 f))
    (h9 : ∀ g f : Fin 128, A9 (ix2 g f) = W2 (ix2 f g)) (h10 : ∀ g : Fin 128, A10 (ix2 g 0) = b2 (ix1 g))
    (h11 : ∀ g : Fin 128, A11 (ix2 0 g) = W3 (ix2 g 0)) (src tgt : Fin 128 → EReal) (attr : EReal) :
    columnMessage A5 A6 A7 A8 A9 A10 A11 src tgt attr
      = message (fun j f => W1 (ix2 j f)) (fun f => b1 (ix1 f)) (fun f g => W2 (ix2 f g)) (fun g => b2 (ix1 g))
          (fun g => W3 (ix2 g 0)) (stacked src tgt attr) := by
  rw [← messageApart_eq]
  unfold columnMessage messageApart
  simp only [h5, h6, h7, h8, h9, h10, h11]

/-- The output function at (d, i), the factors named. -/
theorem regionOut_at (A0 A1 : S128x1007616.Idx → EReal) (A2 : S1x1007616.Idx → EReal) (A3 : S3x1007616.Idx → EReal)
    (A4 : S1x1007616.Idx → EReal) (A5 A6 : S128x128.Idx → EReal) (A7 A8 : S128x1.Idx → EReal) (A9 : S128x128.Idx → EReal)
    (A10 : S128x1.Idx → EReal) (A11 : S1x128.Idx → EReal) (d : Fin 3) (i : Fin 1007616) :
    regionOut A0 A1 A2 A3 A4 A5 A6 A7 A8 A9 A10 A11 (ix2 d i)
      = A3 (ix2 d i) * columnMessage A5 A6 A7 A8 A9 A10 A11 (fun k => A0 (ix2 k i)) (fun k => A1 (ix2 k i)) (A2 (ix2 0 i))
        * A4 (ix2 0 i) := rfl

/-- The output function at (d, i) is the specification at (e, d), once each array at column i is edge e's datum and
    each weight array is its matrix re-laid. -/
theorem regionOut_eq_trans (A0 A1 : S128x1007616.Idx → EReal) (A2 : S1x1007616.Idx → EReal) (A3 : S3x1007616.Idx → EReal)
    (A4 : S1x1007616.Idx → EReal) (A5 A6 : S128x128.Idx → EReal) (A7 A8 : S128x1.Idx → EReal) (A9 : S128x128.Idx → EReal)
    (A10 : S128x1.Idx → EReal) (A11 : S1x128.Idx → EReal)
    (h : S50000x128.Idx → EReal) (S T : S1000000x1.Idx → BitVec 32) (diff : S1000000x3.Idx → EReal)
    (attr mask : S1000000x1.Idx → EReal) (W1 : S257x128.Idx → EReal) (b1 : S128.Idx → EReal) (W2 : S128x128.Idx → EReal)
    (b2 : S128.Idx → EReal) (W3 : S128x1.Idx → EReal) (d : Fin 3) (e : Fin 1000000) (i : Fin 1007616)
    (hs : ∀ k : Fin 128, A0 (ix2 k i) = feats h S e k) (ht : ∀ k : Fin 128, A1 (ix2 k i) = feats h T e k)
    (ha : A2 (ix2 0 i) = attr (ix2 e 0)) (hd : A3 (ix2 d i) = diff (ix2 e d)) (hm : A4 (ix2 0 i) = mask (ix2 e 0))
    (h5 : ∀ f k : Fin 128, A5 (ix2 f k) = W1 (ix2 ⟨k.val, by omega⟩ f))
    (h6 : ∀ f k : Fin 128, A6 (ix2 f k) = W1 (ix2 ⟨128 + k.val, by omega⟩ f))
    (h7 : ∀ f : Fin 128, A7 (ix2 f 0) = W1 (ix2 ⟨256, by omega⟩ f)) (h8 : ∀ f : Fin 128, A8 (ix2 f 0) = b1 (ix1 f))
    (h9 : ∀ g f : Fin 128, A9 (ix2 g f) = W2 (ix2 f g)) (h10 : ∀ g : Fin 128, A10 (ix2 g 0) = b2 (ix1 g))
    (h11 : ∀ g : Fin 128, A11 (ix2 0 g) = W3 (ix2 g 0)) :
    regionOut A0 A1 A2 A3 A4 A5 A6 A7 A8 A9 A10 A11 (ix2 d i) = trans h S T diff attr mask W1 b1 W2 b2 W3 (ix2 e d) := by
  have e0 : (fun k : Fin 128 => A0 (ix2 k i)) = feats h S e := funext hs
  have e1 : (fun k : Fin 128 => A1 (ix2 k i)) = feats h T e := funext ht
  rw [regionOut_at, hd, ha, hm, e0, e1, columnMessage_eq A5 A6 A7 A8 A9 A10 A11 W1 b1 W2 b2 W3 h5 h6 h7 h8 h9 h10 h11]
  rfl

variable (m : (ℓ : Loc nD τ sig) → Buf (Elt Ideal) ℓ)

/-- The specification at the kernel program's arguments and its two start-index arrays. -/
abbrev spec (c : Dev nD) : S1000000x3.Idx → EReal :=
  trans (m ((c.tc : Thread nD τ).loc main_arg0)) (V m c main_v11) (V m c main_v18) (m ((c.tc : Thread nD τ).loc main_arg3))
    (m ((c.tc : Thread nD τ).loc main_arg4)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11))

/-- The region's output at (d, i), i the column of edge e. -/
theorem region_at (c : Dev nD) (d : Fin 3) (e : Fin 1000000) (i : Fin 1007616) (hi : i.val = e.val) :
    regionArray m c (ix2 d i) = spec m c (ix2 e d) :=
  regionOut_eq_trans (V m c main_v23) (V m c main_v24) (V m c main_v25) (V m c main_v26) (V m c main_v27) (V m c main_v30)
    (V m c main_v33) (V m c main_v35) (V m c main_v36) (V m c main_v38) (V m c main_v39) (V m c main_v41)
    (m ((c.tc : Thread nD τ).loc main_arg0)) (V m c main_v11) (V m c main_v18) (m ((c.tc : Thread nD τ).loc main_arg3))
    (m ((c.tc : Thread nD τ).loc main_arg4)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) d e i
    (fun k => source_columns m c k e i hi) (fun k => target_columns m c k e i hi) (attr_row m c e i hi)
    (diff_rows m c d e i hi) (mask_row m c e i hi) (first_a m c) (first_b m c) (first_c m c) (first_bias m c)
    (second m c) (second_bias m c) (third m c)

/-- THE KERNEL PROGRAM'S PER-EDGE ARRAY is the specification's. -/
theorem perEdge_eq (c : Dev nD) : (perEdge (regionArray m c) : S1000000x3.Idx → EReal) = spec m c := by
  funext j
  obtain ⟨e, d, rfl⟩ : ∃ (e : Fin 1000000) (d : Fin 3), j = ix2 e d := ⟨j 0, j 1, eq_ix2 j⟩
  unfold perEdge
  refine (transpose_apply [1, 0] _ transposes_S3x1000000_S1000000x3_1_0 (ix2 e d) (ix2 d e) (fun b => by
    match b with
    | ⟨0, _⟩ => rfl
    | ⟨1, _⟩ => rfl)).trans ?_
  refine (extractStridedSlice_apply ![0, 0] _ slices_S3x1007616_S3x1000000_0_0 (ix2 d e) (ix2 d ⟨e.val, by omega⟩) (fun a => by
    match a with
    | ⟨0, _⟩ => show d.val = 0 + d.val; omega
    | ⟨1, _⟩ => show e.val = 0 + e.val; omega)).trans ?_
  exact region_at m c d e ⟨e.val, by omega⟩ rfl

end Cert.KernelIdeal.PerEdge

end
-- ==== Proof.KernelRun.lean ====
/-
  The kernel program's run with its result named: every weakly fair execution ends with the result buffer holding the
  shared tail of the specification's per-edge array — at the program's own two start-index arrays and row-index vector —
  and with the twelve argument arrays unchanged. The region's output array is what the blocks left (one function of the
  arrays the region finds); without its padding and transposed it is the specification; the tail's other operands pass
  by the region untouched.
-/
import proofs.«152924_j48275432407130_1_alg».proof.Proof.KernelTrans

set_option maxRecDepth 16384

noncomputable section

namespace Cert.KernelIdeal.Run

open Idealize.ShloMosaic Idealize.ShloMosaic.TcCoe Idealize.SL.Sem
open Cert.KernelIdeal Cert.KernelIdeal.Gen Cert.Tail Cert.KernelIdeal.HostTail Cert.KernelIdeal.PerEdge Cert.KernelIdeal.Blocks

variable (m : (ℓ : Loc nD τ sig) → Buf (Elt Ideal) ℓ) (ρ : Dev nD → PrngReg)

/-- The result the kernel program ends with on core c. -/
abbrev result (c : Dev nD) : Buf (Elt Ideal) ((c.tc : Thread nD τ).loc main_v52) :=
  tail (spec m c) (V m c main_v1) (m ((c.tc : Thread nD τ).loc main_arg1)) (m ((c.tc : Thread nD τ).loc main_arg5))

/-- What the lines after the region leave in the result buffer. -/
theorem tail_result (c : Dev nD) :
    Pipeline.afterTail₀ cfgs (dats m) 0 (V0 m) [hostOps1] c main_v52 = result m c :=
  (result_eq m c).trans
    ((congrArg (fun A => tail (perEdge A) (V m c main_v1) (m ((c.tc : Thread nD τ).loc main_arg1))
        (m ((c.tc : Thread nD τ).loc main_arg5))) (final m c)).trans
      (congrArg (fun T => tail T (V m c main_v1) (m ((c.tc : Thread nD τ).loc main_arg1))
        (m ((c.tc : Thread nD τ).loc main_arg5))) (perEdge_eq m c)))

/-- THE KERNEL PROGRAM'S RUN: the result named, the arguments unchanged. -/
theorem run : θ_run defs (onTc (τ := τ) (main (F := Ideal))) ⟨m, fun _ => 0, ρ⟩ (fun r => ∀ c : Dev nD,
      r.2.mem ((c.tc : Thread nD τ).loc main_v52) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨((h c).2 main_v52 (Pipeline.mem_restRefs_of main_v52 (by decide) (by decide))).trans (tail_result m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c))⟩)
    (run_main m ρ)

end Cert.KernelIdeal.Run

end
-- ==== Proof.Agree.lean ====
/-
  The two programs compute their index arrays the same way. Each takes row 0 and row 1 of the edge-index argument as the
  source and target node of every edge, adds 50000 to a negative entry, and stands the result up as a column of start
  indices for its gather; each keeps row 0, as it is, as the vector that says which node an edge's contribution is summed
  into. Operation by operation the two texts are the same, so on the same edge-index argument the three arrays coincide.
-/
import proofs.«152924_j48275432407130_1_alg».proof.Proof.PrefixWeights
import proofs.«152924_j48275432407130_1_alg».proof.Proof.Gen.ReferenceIdeal.Read

set_option maxRecDepth 16384

noncomputable section

namespace Cert.Agree

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The source start indices. -/
theorem source_index (c : Dev nD) :
    (V m c main_v11 : S1000000x1.Idx → BitVec 32)
      = Cert.ReferenceIdeal.Read.val_main_v9 (F := Ideal) (m ((c.tc : Thread nD τ).loc main_arg2)) := by
  region_entry
  rfl

/-- The target start indices. -/
theorem target_index (c : Dev nD) :
    (V m c main_v18 : S1000000x1.Idx → BitVec 32)
      = Cert.ReferenceIdeal.Read.val_main_v16 (F := Ideal) (m ((c.tc : Thread nD τ).loc main_arg2)) := by
  region_entry
  rfl

/-- The vector of nodes the contributions are summed into. -/
theorem row_index (c : Dev nD) :
    (V m c main_v1 : S1000000.Idx → BitVec 32)
      = Cert.ReferenceIdeal.Read.val_main_v1 (F := Ideal) (m ((c.tc : Thread nD τ).loc main_arg2)) := by
  region_entry
  rfl

end Cert.Agree

end
-- ==== Proof.lean ====
/-
  An equivariant coordinate update of a graph network, as a Pallas kernel program and as plain jnp: every edge sends its
  source node a displacement — the edge's coordinate difference times a scalar message times the edge's mask —, the
  displacements arriving at a node are summed, divided by 100, added to the node's coordinates, and the sum is multiplied
  by the node's mask. The message is a three-layer network (257 → 128 → 128 → 1, x · σ(x) between the layers) of the
  features of the edge's two end nodes and the edge's attribute.

  The kernel program gathers the end nodes' features and lays all per-edge data out edge-axis-last, padded to 123 blocks of
  8192 edges; one kernel computes the displacements block by block, the first layer as three pieces (source features,
  target features, attribute) against three blocks of the first weight matrix; the program then drops the padding,
  transposes back and does the summing and the rest with host operations. The reference stacks the 257 inputs of every edge
  and multiplies by the whole first matrix, spells σ(x) as 1 / (1 + e^(-x)), and does the same summing and the rest.

  On the extended reals the two per-edge arrays are equal entry by entry: changes of float format are the identity; a
  product of matrices is the sum over the contracted axis; a sum over 128 + 128 + 1 indices is the three blocks' sums;
  products commute; the logistic function is that quotient. No entry has to be finite for this, and the precondition is
  never opened. What follows the per-edge array is the same function in both programs and is never opened either. The
  three frames are the generated ones (the reference's its generated run with the result dropped); the idealization
  rewrote nothing, so it preserves trivially.
-/
import proofs.«152924_j48275432407130_1_alg».proof.Defs
import proofs.«152924_j48275432407130_1_alg».proof.Proof.Gen.Kernel
import proofs.«152924_j48275432407130_1_alg».proof.Proof.Gen.Kernel.Skeleton
import proofs.«152924_j48275432407130_1_alg».proof.Proof.Gen.Kernel.Launch
import proofs.«152924_j48275432407130_1_alg».proof.Proof.Gen.Kernel.Points
import proofs.«152924_j48275432407130_1_alg».proof.Proof.Gen.Kernel.Frame
import proofs.«152924_j48275432407130_1_alg».proof.Proof.Gen.KernelIdeal
import proofs.«152924_j48275432407130_1_alg».proof.Proof.Gen.KernelIdeal.Skeleton
import proofs.«152924_j48275432407130_1_alg».proof.Proof.Gen.KernelIdeal.Launch
import proofs.«152924_j48275432407130_1_alg».proof.Proof.Gen.KernelIdeal.Points
import proofs.«152924_j48275432407130_1_alg».proof.Proof.Gen.KernelIdeal.Frame
import proofs.«152924_j48275432407130_1_alg».proof.Proof.Gen.ReferenceIdeal
import proofs.«152924_j48275432407130_1_alg».proof.Proof.Gen.Pre_finite_inputs
import proofs.«152924_j48275432407130_1_alg».proof.Proof.Gen.ReferenceIdeal.Run
import proofs.«152924_j48275432407130_1_alg».proof.Proof.Gen.ReferenceIdeal.Read
import proofs.«152924_j48275432407130_1_alg».proof.Proof.RefLayers
import proofs.«152924_j48275432407130_1_alg».proof.Proof.KernelRun
import proofs.«152924_j48275432407130_1_alg».proof.Proof.Agree
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the shared tail of the specification's per-edge
    array: the kernel program by its run, the reference by its run read stage by stage; the index arrays the
    specification and the tail take are the same in both, computed from the same edge-index argument. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v41_eq, Cert.Tail.reference_result, Cert.RefTrans.per_edge_eq,
    a0, a1, a2, a3, a4, a5, a6, a7, a8, a9, a10, a11,
    ← Cert.Agree.source_index m c, ← Cert.Agree.target_index m c, ← Cert.Agree.row_index m c]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
